-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S1000x2048 : Shape := ⟨2, ![1000, 2048]⟩
abbrev S1000 : Shape := ⟨1, ![1000]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1000x2048 : S_.BroadcastsInDim S1000x2048 (![] : Fin 0 → Fin S1000x2048.rank)
  reducesTo_S1000x2048_S_d0_1 : S1000x2048.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S1000x2048 .f32) (main_arg5 : FVec F S1000 .f32) (main_v13 : IVec S_ 1) (main_v16 : IVec S1000 1) : IVec S_ 1 :=
  let main_c_5 : IVec S_ 1 := constantI S_ 1 1#1
  let main_v17 : IVec S_ 1 := (fun x v => Host.reduce IntOp.andi x v reducesTo_S1000_S_d0 h_S_) main_v16 main_c_5
  let main_v18 : IVec S_ 1 := andi main_v13 main_v17
  let main_v19 : FVec F S1000x2048 .f32 := Host.absf main_arg4
  let main_cst_6 : FVec F S_ .f32 := constant S_ .f32 0x7F800000#32
  let main_v20 : FVec F S1000x2048 .f32 := broadcastInDim S1000x2048 ![] bcast_S_S1000x2048 main_cst_6
  let main_v21 : IVec S1000x2048 1 := cmpf .olt main_v19 main_v20
  let main_c_7 : IVec S_ 1 := constantI S_ 1 1#1
  let main_v22 : IVec S_ 1 := (fun x v => Host.reduce IntOp.andi x v reducesTo_S1000x2048_S_d0_1 h_S_) main_v21 main_c_7
  let main_v23 : IVec S_ 1 := andi main_v18 main_v22
  let main_v24 : FVec F S1000 .f32 := Host.absf main_arg5
  let main_cst_8 : FVec F S_ .f32 := constant S_ .f32 0x7F800000#32
  let main_v25 : FVec F S1000 .f32 := broadcastInDim S1000 ![] bcast_S_S1000 main_cst_8
  let main_v26 : IVec S1000 1 := cmpf .olt main_v24 main_v25
  let main_c_9 : IVec S_ 1 := constantI S_ 1 1#1
  let main_v27 : IVec S_ 1 := (fun x v => Host.reduce IntOp.andi x v reducesTo_S1000_S_d0 h_S_) main_v26 main_c_9
  let main_v28 : IVec S_ 1 := andi main_v23 main_v27
  main_v28

def fn {F : FTy → Type} [FloatOps F] (main_arg0 : FVec F S8192x2048 .f32) (main_arg1 : FVec F S8192x2048 .f32) (main_arg2 : FVec F S1000x2048 .f32) (main_arg3 : FVec F S1000 .f32) (main_arg4 : FVec F S1000x2048 .f32) (main_arg5 : FVec F S1000 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S1000x2048 .f32 := Host.absf main_arg2
  let main_cst_2 : FVec F S_ .f32 := constant S_ .f32 0x7F800000#32
  let main_v10 : FVec F S1000x2048 .f32 := broadcastInDim S1000x2048 ![] bcast_S_S1000x2048 main_cst_2
  let main_v11 : IVec S1000x2048 1 := cmpf .olt main_v9 main_v10
  let main_c_3 : IVec S_ 1 := constantI S_ 1 1#1
  let main_v12 : IVec S_ 1 := (fun x v => Host.reduce IntOp.andi x v reducesTo_S1000x2048_S_d0_1 h_S_) main_v11 main_c_3
  let main_v13 : IVec S_ 1 := andi main_v8 main_v12
  let main_v14 : FVec F S1000 .f32 := Host.absf main_arg3
  let main_cst_4 : FVec F S_ .f32 := constant S_ .f32 0x7F800000#32
  let main_v15 : FVec F S1000 .f32 := broadcastInDim S1000 ![] bcast_S_S1000 main_cst_4
  let main_v16 : IVec S1000 1 := cmpf .olt main_v14 main_v15
  fn_part1 (F := F) main_arg4 main_arg5 main_v13 main_v16
-- ==== Kernel.lean ====
abbrev S8192x2048 : Shape := ⟨2, ![8192, 2048]⟩
abbrev S1000x2048 : Shape := ⟨2, ![1000, 2048]⟩
abbrev S1000 : Shape := ⟨1, ![1000]⟩
abbrev S2048x1000 : Shape := ⟨2, ![2048, 1000]⟩
abbrev S1x1000 : Shape := ⟨2, ![1, 1000]⟩
abbrev S8192x1000 : Shape := ⟨2, ![8192, 1000]⟩
abbrev S512x2048 : Shape := ⟨2, ![512, 2048]⟩
abbrev S512x1000 : Shape := ⟨2, ![512, 1000]⟩
abbrev S512 : Shape := ⟨1, ![512]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1000x2048, .f32⟩
  | .hbm, ⟨3, _⟩ => ⟨S1000, .f32⟩
  | .hbm, ⟨4, _⟩ => ⟨S1000x2048, .f32⟩
  | .hbm, ⟨5, _⟩ => ⟨S1000, .f32⟩
  | .hbm, ⟨6, _⟩ => ⟨S2048x1000, .f32⟩
  | .hbm, ⟨7, _⟩ => ⟨S2048x1000, .bf16⟩
  | .hbm, ⟨8, _⟩ => ⟨S2048x1000, .f32⟩
  | .hbm, ⟨9, _⟩ => ⟨S2048x1000, .bf16⟩
  | .hbm, ⟨10, _⟩ => ⟨S1x1000, .f32⟩
  | .hbm, ⟨11, _⟩ => ⟨S1x1000, .f32⟩
  | .hbm, ⟨12, _⟩ => ⟨S8192x1000, .f32⟩
  | .hbm, ⟨13, _⟩ => ⟨S8192x1000, .f32⟩
  | .hbm, ⟨14, _⟩ => ⟨S8192x1000, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2048x1000, .bf16⟩
  | .local _ .vmem, ⟨5, _⟩ => ⟨S2048x1000, .bf16⟩
  | .local _ .vmem, ⟨6, _⟩ => ⟨S1x1000, .f32⟩
  | .local _ .vmem, ⟨7, _⟩ => ⟨S1x1000, .f32⟩
  | .local _ .vmem, ⟨8, _⟩ => ⟨S512x1000, .f32⟩
  | .local _ .vmem, ⟨9, _⟩ => ⟨S512x1000, .f32⟩
  | .local _ .vmem, ⟨10, _⟩ => ⟨S512x1000, .f32⟩
  | .local _ .vmem, ⟨11, _⟩ => ⟨S512x1000, .f32⟩
  | .local _ .vmem, ⟨12, _⟩ => ⟨S512x1000, .f32⟩
  | .local _ .vmem, ⟨13, _⟩ => ⟨S512x1000, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S1000x2048_S2048x1000_1_0 : S1000x2048.Transposes [1, 0] S2048x1000
  bitsLt_bf16_f32 : FTy.bits .bf16 < FTy.bits .f32
  shapeCasts_S1000_S1x1000 : S1000.ShapeCasts S1x1000
  inb_S512x2048_S512x2048_0_0 : ∀ a, (![0, 0] : Fin 2 → Nat) a + S512x2048.size a ≤ S512x2048.size a
  h_S512x2048 : 0 < S512x2048.numel
  inb_S2048x1000_S2048x1000_0_0 : ∀ a, (![0, 0] : Fin 2 → Nat) a + S2048x1000.size a ≤ S2048x1000.size a
  h_S2048x1000 : 0 < S2048x1000.numel
  shapeCasts_S2048x1000_S2048x1000 : S2048x1000.ShapeCasts S2048x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S512x1000 : S1x1000.Broadcasts S512x1000
  reduces_S512x1000_S512 : S512x1000.Reduces [1] S512
  shapeCasts_S512_S512x1 : S512.ShapeCasts S512x1
  broadcasts_S512x1_S512x1000 : S512x1.Broadcasts S512x1000
  inb_S512x1000_S512x1000_0_0 : ∀ a, (![0, 0] : Fin 2 → Nat) a + S512x1000.size a ≤ S512x1000.size a
  h_S512x1000 : 0 < S512x1000.numel
  dot_S512x2048_S2048x1000_S512x1000_1_0_0_1_n_n_wf : DotDims.WF S512x2048 S2048x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1000.size a ≤ S2048x1000.size a
  hwx0_2 : ∀ i : grid0.Coords, EltTy.bits .bf16 = 32 ∨ (Rect.block (s := S2048x1000) S2048x1000.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1000.size a ≤ S2048x1000.size a
  hwx0_3 : ∀ i : grid0.Coords, EltTy.bits .bf16 = 32 ∨ (Rect.block (s := S2048x1000) S2048x1000.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1000.size a ≤ S1x1000.size a
  hwx0_4 : ∀ i : grid0.Coords, EltTy.bits .f32 = 32 ∨ (Rect.block (s := S1x1000) S1x1000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1000.size a ≤ S1x1000.size a
  hwx0_5 : ∀ i : grid0.Coords, EltTy.bits .f32 = 32 ∨ (Rect.block (s := S1x1000) S1x1000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1000.size a ≤ S8192x1000.size a
  hwx0_6 : ∀ i : grid0.Coords, EltTy.bits .f32 = 32 ∨ (Rect.block (s := S8192x1000) S512x1000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1000.size a ≤ S8192x1000.size a
  hwx0_7 : ∀ i : grid0.Coords, EltTy.bits .f32 = 32 ∨ (Rect.block (s := S8192x1000) S512x1000.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1000.size a ≤ S8192x1000.size a
  hwx0_8 : ∀ i : grid0.Coords, EltTy.bits .f32 = 32 ∨ (Rect.block (s := S8192x1000) S512x1000.size (cc0_transform_8 i) (hinb0_8 i)).WholeWords (EltTy.packing .f32)

variable [Facts₀]

def dot_S512x2048_S2048x1000_S512x1000_1_0_0_1_n_n : DotDims S512x2048 S2048x1000 S512x1000 where
  lhsContracting := [1]
  rhsContracting := [0]
  lhsNonContracting := [0]
  rhsNonContracting := [1]
  lhsBatch := []
  rhsBatch := []
  wf := dot_S512x2048_S2048x1000_S512x1000_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1000.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1000.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S512x1000.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S512x1000.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_2) S512x1000.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S1000x2048 : Shape := ⟨2, ![1000, 2048]⟩
abbrev S1000 : Shape := ⟨1, ![1000]⟩
abbrev S2048x1000 : Shape := ⟨2, ![2048, 1000]⟩
abbrev S8192x1000 : Shape := ⟨2, ![8192, 1000]⟩
abbrev S1x1000 : Shape := ⟨2, ![1, 1000]⟩
abbrev S_ : Shape := ⟨0, ![]⟩
abbrev S8192 : Shape := ⟨1, ![8192]⟩
abbrev S8192x1 : Shape := ⟨2, ![8192, 1]⟩

abbrev nBuf : Space → Nat
  | .hbm => 104
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1000x2048, .f32⟩
  | .hbm, ⟨3, _⟩ => ⟨S1000, .f32⟩
  | .hbm, ⟨4, _⟩ => ⟨S1000x2048, .f32⟩
  | .hbm, ⟨5, _⟩ => ⟨S1000, .f32⟩
  | .hbm, ⟨6, _⟩ => ⟨S2048x1000, .f32⟩
  | .hbm, ⟨7, _⟩ => ⟨S8192x1000, .f32⟩
  | .hbm, ⟨8, _⟩ => ⟨S1x1000, .f32⟩
  | .hbm, ⟨9, _⟩ => ⟨S8192x1000, .f32⟩
  | .hbm, ⟨10, _⟩ => ⟨S8192x1000, .f32⟩
  | .hbm, ⟨11, _⟩ => ⟨S2048x1000, .f32⟩
  | .hbm, ⟨12, _⟩ => ⟨S8192x1000, .f32⟩
  | .hbm, ⟨13, _⟩ => ⟨S1x1000, .f32⟩
  | .hbm, ⟨14, _⟩ => ⟨S8192x1000, .f32⟩
  | .hbm, ⟨15, _⟩ => ⟨S8192x1000, .f32⟩
  | .hbm, ⟨16, _⟩ => ⟨S_, .f32⟩
  | .hbm, ⟨17, _⟩ => ⟨S8192x1000, .f32⟩
  | .hbm, ⟨18, _⟩ => ⟨S8192x1000, .f32⟩
  | .hbm, ⟨19, _⟩ => ⟨S8192x1000, .f32⟩
  | .hbm, ⟨20, _⟩ => ⟨S8192x1000, .f32⟩
  | .hbm, ⟨21, _⟩ => ⟨S8192x1000, .i1⟩
  | .hbm, ⟨22, _⟩ => ⟨S8192x1000, .f32⟩
  | .hbm, ⟨23, _⟩ => ⟨S8192x1000, .f32⟩
  | .hbm, ⟨24, _⟩ => ⟨S8192x1000, .f32⟩
  | .hbm, ⟨25, _⟩ => ⟨S8192x1000, .f32⟩
  | .hbm, ⟨26, _⟩ => ⟨S8192x1000, .f32⟩
  | .hbm, ⟨27, _⟩ => ⟨S8192x1000, .f32⟩
  | .hbm, ⟨28, _⟩ => ⟨S8192x1000, .f32⟩
  | .hbm, ⟨29, _⟩ => ⟨S8192x1000, .f32⟩
  | .hbm, ⟨30, _⟩ => ⟨S_, .f32⟩
  | .hbm, ⟨31, _⟩ => ⟨S8192x1000, .f32⟩
  | .hbm, ⟨32, _⟩ => ⟨S8192x1000, .f32⟩
  | .hbm, ⟨33, _⟩ => ⟨S_, .f32⟩
  | .hbm, ⟨34, _⟩ => ⟨S8192x1000, .f32⟩
  | .hbm, ⟨35, _⟩ => ⟨S8192x1000, .f32⟩
  | .hbm, ⟨36, _⟩ => ⟨S8192x1000, .f32⟩
  | .hbm, ⟨37, _⟩ => ⟨S8192x1000, .f32⟩
  | .hbm, ⟨38, _⟩ => ⟨S8192x1000, .i1⟩
  | .hbm, ⟨39, _⟩ => ⟨S8192x1000, .f32⟩
  | .hbm, ⟨40, _⟩ => ⟨S8192x1000, .f32⟩
  | .hbm, ⟨41, _⟩ => ⟨S8192x1000, .f32⟩
  | .hbm, ⟨42, _⟩ => ⟨S8192x1000, .f32⟩
  | .hbm, ⟨43, _⟩ => ⟨S8192x1000, .f32⟩
  | .hbm, ⟨44, _⟩ => ⟨S8192x1000, .f32⟩
  | .hbm, ⟨45, _⟩ => ⟨S8192x1000, .f32⟩
  | .hbm, ⟨46, _⟩ => ⟨S8192x1000, .f32⟩
  | .hbm, ⟨47, _⟩ => ⟨S_, .f32⟩
  | .hbm, ⟨48, _⟩ => ⟨S8192x1000, .f32⟩
  | .hbm, ⟨49, _⟩ => ⟨S8192x1000, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1000, .f32⟩
  | .hbm, ⟨58, _⟩ => ⟨S8192x1000, .f32⟩
  | .hbm, ⟨59, _⟩ => ⟨S8192x1000, .f32⟩
  | .hbm, ⟨60, _⟩ => ⟨S8192x1000, .f32⟩
  | .hbm, ⟨61, _⟩ => ⟨S_, .f32⟩
  | .hbm, ⟨62, _⟩ => ⟨S8192x1000, .f32⟩
  | .hbm, ⟨63, _⟩ => ⟨S8192x1000, .f32⟩
  | .hbm, ⟨64, _⟩ => ⟨S8192x1000, .f32⟩
  | .hbm, ⟨65, _⟩ => ⟨S8192x1000, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S8192x1000, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S8192x1000, .f32⟩
  | .hbm, ⟨86, _⟩ => ⟨S8192x1000, .f32⟩
  | .hbm, ⟨87, _⟩ => ⟨S8192x1000, .f32⟩
  | .hbm, ⟨88, _⟩ => ⟨S8192x1000, .f32⟩
  | .hbm, ⟨89, _⟩ => ⟨S8192x1000, .f32⟩
  | .hbm, ⟨90, _⟩ => ⟨S8192x1000, .f32⟩
  | .hbm, ⟨91, _⟩ => ⟨S8192x1000, .f32⟩
  | .hbm, ⟨92, _⟩ => ⟨S8192x1000, .f32⟩
  | .hbm, ⟨93, _⟩ => ⟨S8192x1000, .f32⟩
  | .hbm, ⟨94, _⟩ => ⟨S8192x1, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S8192x1000, .f32⟩
  | .hbm, ⟨100, _⟩ => ⟨S8192x1000, .f32⟩
  | .hbm, ⟨101, _⟩ => ⟨S_, .f32⟩
  | .hbm, ⟨102, _⟩ => ⟨S8192x1000, .f32⟩
  | .hbm, ⟨103, _⟩ => ⟨S8192x1000, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_v13 : Ref sig .tc := ⟨.hbm, 46, rfl⟩
abbrev main_cst_0 : Ref sig .tc := ⟨.hbm, 47, rfl⟩
abbrev main_v14 : Ref sig .tc := ⟨.hbm, 48, rfl⟩
abbrev main_v15 : Ref sig .tc := ⟨.hbm, 49, rfl⟩
abbrev main_cst_1 : Ref sig .tc := ⟨.hbm, 50, rfl⟩
abbrev main_v16 : Ref sig .tc := ⟨.hbm, 51, rfl⟩
abbrev main_v17 : Ref sig .tc := ⟨.hbm, 52, rfl⟩
abbrev main_cst_2 : Ref sig .tc := ⟨.hbm, 53, rfl⟩
abbrev main_v18 : Ref sig .tc := ⟨.hbm, 54, rfl⟩
abbrev main_v19 : Ref sig .tc := ⟨.hbm, 55, rfl⟩
abbrev main_cst_3 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_cst_4 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_5 : Ref sig .tc := ⟨.hbm, 66, rfl⟩
abbrev main_v28 : Ref sig .tc := ⟨.hbm, 67, rfl⟩
abbrev main_v29 : Ref sig .tc := ⟨.hbm, 68, rfl⟩
abbrev main_cst_6 : Ref sig .tc := ⟨.hbm, 69, rfl⟩
abbrev main_v30 : Ref sig .tc := ⟨.hbm, 70, rfl⟩
abbrev main_v31 : Ref sig .tc := ⟨.hbm, 71, rfl⟩
abbrev main_cst_7 : Ref sig .tc := ⟨.hbm, 72, rfl⟩
abbrev main_v32 : Ref sig .tc := ⟨.hbm, 73, rfl⟩
abbrev main_cst_8 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_cst_9 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_10 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_11 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_12 : Ref sig .tc := ⟨.hbm, 101, rfl⟩
abbrev main_v56 : Ref sig .tc := ⟨.hbm, 102, rfl⟩
abbrev main_v57 : Ref sig .tc := ⟨.hbm, 103, rfl⟩

abbrev nD : Nat := 1
abbrev τ : Topo := Topo.v7x

variable {F : FTy → Type} [FloatOps F]

class Facts₀ : Prop where
  transposes_S1000x2048_S2048x1000_1_0 : S1000x2048.Transposes [1, 0] S2048x1000
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  bcast_S_S8192x1000 : S_.BroadcastsInDim S8192x1000 (![] : Fin 0 → Fin S8192x1000.rank)
  reducesTo_S8192x1000_S8192_d1 : S8192x1000.ReducesTo [1] S8192
  h_S_ : 0 < S_.numel
  bcast_S8192_S8192x1_0 : S8192.BroadcastsInDim S8192x1 (![0] : Fin 1 → Fin S8192x1.rank)
  bcast_S8192x1_S8192x1000_0_1 : S8192x1.BroadcastsInDim S8192x1000 (![0, 1] : Fin 2 → Fin S8192x1000.rank)
  bcast_S_S8192x1 : S_.BroadcastsInDim S8192x1 (![] : Fin 0 → Fin S8192x1.rank)
  dot_S8192x2048_S2048x1000_S8192x1000_1_0_0_1_n_n_wf : DotDims.WF S8192x2048 S2048x1000 S8192x1000 [1] [0] [0] [1] [] []

variable [Facts₀]

def dot_S8192x2048_S2048x1000_S8192x1000_1_0_0_1_n_n : DotDims S8192x2048 S2048x1000 S8192x1000 where
  lhsContracting := [1]
  rhsContracting := [0]
  lhsNonContracting := [0]
  rhsNonContracting := [1]
  lhsBatch := []
  rhsBatch := []
  wf := dot_S8192x2048_S2048x1000_S8192x1000_1_0_0_1_n_n_wf

class Facts : Prop extends Facts₀ where

variable [Facts]
-- ==== Proof.Spec.lean ====
/-
  The mathematics both programs compute, stated once over the extended reals.

  Two "views" x and y of a batch of 8192 samples go through one linear layer each (weights W : 1000 × 2048, bias b : 1000).
  A logit z becomes a Dirichlet parameter alpha = softplus z + 1, with softplus z = max z 0 + log (1 + e^(-|z|)).
  For one sample, with S the sum of its 1000 parameters, the belief masses are b_c = (alpha_c - 1) / S and the
  uncertainty is u = 1000 / S. Two opinions (b¹, u¹), (b², u²) are combined by Dempster's rule: with the conflict
  C = (∑ b¹)(∑ b²) - ∑ b¹ b², the combined belief is (b¹ b² + b¹ u² + b² u¹) / (1 - C), the combined uncertainty
  u¹ u² / (1 - C), and the combined parameter is belief · (1000 / uncertainty) + 1.

  Everything of a sample depends on that sample's row of x and of y only: the three results are functions of a row.
-/
import Idealize.ShloMosaic.PureOps.Ideal
import Idealize.ShloMosaic.PureOps.Ideal.Laws
import Idealize.ShloMosaic.Lib.ValueIdx

noncomputable section

namespace Cert.Fusion

open Idealize.ShloMosaic Idealize.ShloMosaic.ValueIdx

/-- `softplus z + 1`: the evidence a logit gives, as a Dirichlet parameter. -/
def evidence (z : EReal) : EReal :=
  max z 0 + Ideal.log1p (Ideal.exp (-(max z (-z)))) + Ideal.ofBits .f32 0x3F800000#32

/-- On the extended reals nothing differs from itself, so a comparison "z ≠ z" (either spelling) is false. -/
theorem cmp_une_self (w : EReal) : Ideal.cmp .une w w = 0#1 := by simp [Ideal.cmp]
theorem cmp_one_self (w : EReal) : Ideal.cmp .one w w = 0#1 := by simp [Ideal.cmp]

/-- The reference's spelling of `softplus z + 1`: guarded by `z ≠ z`, with `-|z|` a negation. -/
theorem evidence_of_neg (z : EReal) :
    Scalar.select (Ideal.cmp .une (z - Ideal.ofBits .f32 0x00000000#32) (z - Ideal.ofBits .f32 0x00000000#32))
        (z + Ideal.ofBits .f32 0x00000000#32)
        (max z (Ideal.ofBits .f32 0x00000000#32)
          + Ideal.log1p (Ideal.exp (-(max (z - Ideal.ofBits .f32 0x00000000#32) (-(z - Ideal.ofBits .f32 0x00000000#32))))))
      + Ideal.ofBits .f32 0x3F800000#32 = evidence z := by
  rw [Ideal.ofBits_zero_f32, sub_zero, cmp_une_self, select_zero]
  rfl

/-- The kernel's spelling: guarded the same way, with `-|z|` the difference `0 - |z|`. -/
theorem evidence_of_zero_sub (z : EReal) :
    Scalar.select (Ideal.cmp .one (z - Ideal.ofBits .f32 0x00000000#32) (z - Ideal.ofBits .f32 0x00000000#32))
        (z + Ideal.ofBits .f32 0x00000000#32)
        (max z (Ideal.ofBits .f32 0x00000000#32)
          + Ideal.log1p (Ideal.exp (Ideal.ofBits .f32 0x00000000#32
              - max (z - Ideal.ofBits .f32 0x00000000#32) (-(z - Ideal.ofBits .f32 0x00000000#32)))))
      + Ideal.ofBits .f32 0x3F800000#32 = evidence z := by
  rw [Ideal.ofBits_zero_f32, sub_zero, zero_sub, cmp_one_self, select_zero]
  rfl

/-- One logit: a row of 2048 features against row `c` of the weights, plus the bias. -/
def logit (xrow : Fin 2048 → EReal) (W : (⟨2, ![1000, 2048]⟩ : Shape).Idx → EReal)
    (b : (⟨1, ![1000]⟩ : Shape).Idx → EReal) (c : Fin 1000) : EReal :=
  (∑ k : Fin 2048, xrow k * W (ix2 c k)) + b (ix1 c)

/-- The Dirichlet parameters of sample `r` of a view. -/
def alphaRow (X : (⟨2, ![8192, 2048]⟩ : Shape).Idx → EReal) (W : (⟨2, ![1000, 2048]⟩ : Shape).Idx → EReal)
    (b : (⟨1, ![1000]⟩ : Shape).Idx → EReal) (r : Fin 8192) (c : Fin 1000) : EReal :=
  evidence (logit (fun k => X (ix2 r k)) W b c)

/-- Belief mass of class `c`: `(alpha_c - 1) / S`. -/
def belief (a : Fin 1000 → EReal) (c : Fin 1000) : EReal :=
  Ideal.div (a c - Ideal.ofBits .f32 0x3F800000#32) (∑ c' : Fin 1000, a c')

/-- Uncertainty: `1000 / S`. -/
def uncert (a : Fin 1000 → EReal) : EReal :=
  Ideal.div (Ideal.ofBits .f32 0x447A0000#32) (∑ c' : Fin 1000, a c')

/-- `1 - C`, with `C = (∑ b¹)(∑ b²) - ∑ b¹ b²` the conflict of the two opinions. -/
def agreement (a1 a2 : Fin 1000 → EReal) : EReal :=
  Ideal.ofBits .f32 0x3F800000#32
    - ((∑ c : Fin 1000, belief a1 c) * (∑ c : Fin 1000, belief a2 c) - ∑ c : Fin 1000, belief a1 c * belief a2 c)

/-- Dempster's combination of two samples' parameters, as a Dirichlet parameter again. -/
def fuse (a1 a2 : Fin 1000 → EReal) (q : Fin 1000) : EReal :=
  Ideal.div (belief a1 q * belief a2 q + belief a1 q * uncert a2 + belief a2 q * uncert a1) (agreement a1 a2)
      * Ideal.div (Ideal.ofBits .f32 0x447A0000#32) (Ideal.div (uncert a1 * uncert a2) (agreement a1 a2))
    + Ideal.ofBits .f32 0x3F800000#32

/-- The parameters of one view, as an array over (sample, class). -/
def alphaArr (X : (⟨2, ![8192, 2048]⟩ : Shape).Idx → EReal) (W : (⟨2, ![1000, 2048]⟩ : Shape).Idx → EReal)
    (b : (⟨1, ![1000]⟩ : Shape).Idx → EReal) : (⟨2, ![8192, 1000]⟩ : Shape).Idx → EReal :=
  fun i => alphaRow X W b ⟨(i 0).val, (i 0).isLt⟩ ⟨(i 1).val, (i 1).isLt⟩

/-- The combined parameters, as an array over (sample, class). -/
def fusedArr (X Y : (⟨2, ![8192, 2048]⟩ : Shape).Idx → EReal) (Wx : (⟨2, ![1000, 2048]⟩ : Shape).Idx → EReal)
    (bx : (⟨1, ![1000]⟩ : Shape).Idx → EReal) (Wy : (⟨2, ![1000, 2048]⟩ : Shape).Idx → EReal)
    (by' : (⟨1, ![1000]⟩ : Shape).Idx → EReal) : (⟨2, ![8192, 1000]⟩ : Shape).Idx → EReal :=
  fun i => fuse (alphaRow X Wx bx ⟨(i 0).val, (i 0).isLt⟩) (alphaRow Y Wy by' ⟨(i 0).val, (i 0).isLt⟩) ⟨(i 1).val, (i 1).isLt⟩

theorem alphaArr_ix2 (X : (⟨2, ![8192, 2048]⟩ : Shape).Idx → EReal) (W : (⟨2, ![1000, 2048]⟩ : Shape).Idx → EReal)
    (b : (⟨1, ![1000]⟩ : Shape).Idx → EReal) (r : Fin 8192) (c : Fin 1000) :
    alphaArr X W b (ix2 r c) = alphaRow X W b r c := rfl

theorem fusedArr_ix2 (X Y : (⟨2, ![8192, 2048]⟩ : Shape).Idx → EReal) (Wx : (⟨2, ![1000, 2048]⟩ : Shape).Idx → EReal)
    (bx : (⟨1, ![1000]⟩ : Shape).Idx → EReal) (Wy : (⟨2, ![1000, 2048]⟩ : Shape).Idx → EReal)
    (by' : (⟨1, ![1000]⟩ : Shape).Idx → EReal) (r : Fin 8192) (c : Fin 1000) :
    fusedArr X Y Wx bx Wy by' (ix2 r c) = fuse (alphaRow X Wx bx r) (alphaRow Y Wy by' r) c := rfl

end Cert.Fusion

end
-- ==== Proof.RefRow.lean ====
/-
  The reference's arithmetic read one sample at a time.

  The reference computes the same quantities as the kernel on whole 8192-row arrays: every sum runs along the class
  axis of one row and every broadcast spreads a per-row quantity over the classes of that row. Read at (row r, class q),
  each stage is therefore the corresponding function of row r of the two views' parameters, and the last one is
  `Cert.Fusion.fuse` of them at q. The logits are a row of the features against a row of the weights (the weights are
  transposed on the way into the product), plus the bias.
-/
import proofs.«145025_j84902913507853_1_alg».proof.Proof.RefRead
import proofs.«145025_j84902913507853_1_alg».proof.Proof.Spec
import Idealize.ShloMosaic.Lib.ValueIdx
import Idealize.ShloMosaic.PureOps.Ideal.Laws

noncomputable section

namespace Cert.ReferenceIdeal.Row

open Cert.ReferenceIdeal Cert.ReferenceIdeal.ReadP Idealize.ShloMosaic Idealize.ShloMosaic.ValueIdx Cert.Fusion

variable (x0 x1 : (⟨S8192x2048, .f32⟩ : BufTy).Contents (Elt Ideal)) (x2 : (⟨S1000x2048, .f32⟩ : BufTy).Contents (Elt Ideal))
  (x3 : (⟨S1000, .f32⟩ : BufTy).Contents (Elt Ideal)) (x4 : (⟨S1000x2048, .f32⟩ : BufTy).Contents (Elt Ideal))
  (x5 : (⟨S1000, .f32⟩ : BufTy).Contents (Elt Ideal))

/-- A sum that starts from the float zero is the sum. -/
theorem zero_init (z s : EReal) (hz : z = Ideal.ofBits .f32 0x00000000#32) : z + s = s := by
  rw [hz, Ideal.ofBits_zero_f32, zero_add]

/-! ## Logits and evidence -/

theorem logit_first (r : Fin 8192) (c : Fin 1000) :
    val_main_v4 (F := Ideal) x0 x2 x3 (ix2 r c) = logit (fun k => x0 (ix2 r k)) x2 x3 c := by
  rw [val_main_v4_apply, val_main_v1_apply, val_main_v3_apply, val_main_v2_apply]
  unfold logit
  refine congrArg₂ (· + ·) (Finset.sum_congr rfl fun k _ => ?_) (congrArg x3 ?_)
  · rw [val_main_v0_apply]
    refine congrArg₂ (· * ·) (congrArg x0 ?_) (congrArg x2 ?_) <;>
      exact funext fun a => by match a with | ⟨0, _⟩ => rfl | ⟨1, _⟩ => rfl
  · exact funext fun a => by match a with | ⟨0, _⟩ => rfl

theorem logit_second (r : Fin 8192) (c : Fin 1000) :
    val_main_v9 (F := Ideal) x1 x4 x5 (ix2 r c) = logit (fun k => x1 (ix2 r k)) x4 x5 c := by
  rw [val_main_v9_apply, val_main_v6_apply, val_main_v8_apply, val_main_v7_apply]
  unfold logit
  refine congrArg₂ (· + ·) (Finset.sum_congr rfl fun k _ => ?_) (congrArg x5 ?_)
  · rw [val_main_v5_apply]
    refine congrArg₂ (· * ·) (congrArg x1 ?_) (congrArg x4 ?_) <;>
      exact funext fun a => by match a with | ⟨0, _⟩ => rfl | ⟨1, _⟩ => rfl
  · exact funext fun a => by match a with | ⟨0, _⟩ => rfl

/-- The first view's parameters are the evidence of its logits. -/
theorem alpha_first (i : S8192x1000.Idx) :
    val_main_v12 (F := Ideal) x0 x2 x3 i = evidence (val_main_v4 (F := Ideal) x0 x2 x3 i) := by
  refine Eq.trans ?_ (evidence_of_neg _)
  simp only [val_main_v12_apply, val_main_v10_apply, val_main_call0_v4_apply, val_main_call0_v3_apply,
    val_main_call0_v6_apply, val_main_call0_v11_apply, val_main_call0_v1_apply, val_main_call0_v10_apply,
    val_main_call0_v9_apply, val_main_call0_v8_apply, val_main_call0_v7_apply, val_main_v11_apply, val_main_cst_apply,
    val_main_call0_v0_apply, val_main_call0_v2_apply, val_main_call0_v5_apply, val_main_call0_cst_apply]
  rfl

/-- So are the second view's. -/
theorem alpha_second (i : S8192x1000.Idx) :
    val_main_v15 (F := Ideal) x1 x4 x5 i = evidence (val_main_v9 (F := Ideal) x1 x4 x5 i) := by
  refine Eq.trans ?_ (evidence_of_neg _)
  simp only [val_main_v15_apply, val_main_v13_apply, val_main_call1_v4_apply, val_main_call1_v3_apply,
    val_main_call1_v6_apply, val_main_call1_v11_apply, val_main_call1_v1_apply, val_main_call1_v10_apply,
    val_main_call1_v9_apply, val_main_call1_v8_apply, val_main_call1_v7_apply, val_main_v14_apply, val_main_cst_0_apply,
    val_main_call1_v0_apply, val_main_call1_v2_apply, val_main_call1_v5_apply, val_main_call1_cst_apply]
  rfl

/-- The first view's parameter array is `alphaArr` of its arguments. -/
theorem alpha_first_arr : val_main_v12 (F := Ideal) x0 x2 x3 = alphaArr x0 x2 x3 := by
  funext i
  obtain ⟨r, c, rfl⟩ : ∃ (r : Fin 8192) (c : Fin 1000), i = ix2 r c := ⟨i 0, i 1, eq_ix2 i⟩
  rw [alpha_first, logit_first]
  rfl

theorem alpha_second_arr : val_main_v15 (F := Ideal) x1 x4 x5 = alphaArr x1 x4 x5 := by
  funext i
  obtain ⟨r, c, rfl⟩ : ∃ (r : Fin 8192) (c : Fin 1000), i = ix2 r c := ⟨i 0, i 1, eq_ix2 i⟩
  rw [alpha_second, logit_second]
  rfl

/-! ## Row sums, columns and spreads -/

/-- The sum of the first view's parameters over the classes of row r. -/
theorem sum_first (r : Fin 8192) :
    val_main_v16 (F := Ideal) x0 x2 x3 (ix1 r) = ∑ c : Fin 1000, val_main_v12 (F := Ideal) x0 x2 x3 (ix2 r c) := by
  rw [val_main_v16_apply]
  refine (zero_init _ _ rfl).trans (Finset.sum_congr rfl fun k _ => congrArg _ ?_)
  exact funext fun a => by match a with | ⟨0, _⟩ => rfl | ⟨1, _⟩ => rfl

theorem sum_second (r : Fin 8192) :
    val_main_v18 (F := Ideal) x1 x4 x5 (ix1 r) = ∑ c : Fin 1000, val_main_v15 (F := Ideal) x1 x4 x5 (ix2 r c) := by
  rw [val_main_v18_apply]
  refine (zero_init _ _ rfl).trans (Finset.sum_congr rfl fun k _ => congrArg _ ?_)
  exact funext fun a => by match a with | ⟨0, _⟩ => rfl | ⟨1, _⟩ => rfl

/-- Kept as a column. -/
theorem col_first (r : Fin 8192) (u : Fin 1) :
    val_main_v17 (F := Ideal) x0 x2 x3 (ix2 r u) = ∑ c : Fin 1000, val_main_v12 (F := Ideal) x0 x2 x3 (ix2 r c) :=
  ((val_main_v17_apply x0 x2 x3 (ix2 r u)).trans
    (congrArg (val_main_v16 (F := Ideal) x0 x2 x3) (funext fun a => by match a with | ⟨0, _⟩ => rfl))).trans (sum_first x0 x2 x3 r)

theorem col_second (r : Fin 8192) (u : Fin 1) :
    val_main_v19 (F := Ideal) x1 x4 x5 (ix2 r u) = ∑ c : Fin 1000, val_main_v15 (F := Ideal) x1 x4 x5 (ix2 r c) :=
  ((val_main_v19_apply x1 x4 x5 (ix2 r u)).trans
    (congrArg (val_main_v18 (F := Ideal) x1 x4 x5) (funext fun a => by match a with | ⟨0, _⟩ => rfl))).trans (sum_second x1 x4 x5 r)

/-- Belief masses of the first view. -/
theorem belief_first (r : Fin 8192) (c : Fin 1000) :
    val_main_v23 (F := Ideal) x0 x2 x3 (ix2 r c)
      = belief (fun c' => val_main_v12 (F := Ideal) x0 x2 x3 (ix2 r c')) c := by
  have hs : val_main_v22 (F := Ideal) x0 x2 x3 (ix2 r c) = ∑ c' : Fin 1000, val_main_v12 (F := Ideal) x0 x2 x3 (ix2 r c') :=
    ((val_main_v22_apply x0 x2 x3 (ix2 r c)).trans
      (congrArg (val_main_v17 (F := Ideal) x0 x2 x3) (funext fun a => by match a with | ⟨0, _⟩ => rfl | ⟨1, _⟩ => rfl))).trans
      (col_first x0 x2 x3 r (0 : Fin 1))
  have h1 : val_main_v20 (F := Ideal) (ix2 r c) = Ideal.ofBits .f32 0x3F800000#32 := (val_main_v20_apply _).trans rfl
  rw [val_main_v23_apply, hs, val_main_v21_apply, h1]
  rfl

theorem belief_second (r : Fin 8192) (c : Fin 1000) :
    val_main_v27 (F := Ideal) x1 x4 x5 (ix2 r c)
      = belief (fun c' => val_main_v15 (F := Ideal) x1 x4 x5 (ix2 r c')) c := by
  have hs : val_main_v26 (F := Ideal) x1 x4 x5 (ix2 r c) = ∑ c' : Fin 1000, val_main_v15 (F := Ideal) x1 x4 x5 (ix2 r c') :=
    ((val_main_v26_apply x1 x4 x5 (ix2 r c)).trans
      (congrArg (val_main_v19 (F := Ideal) x1 x4 x5) (funext fun a => by match a with | ⟨0, _⟩ => rfl | ⟨1, _⟩ => rfl))).trans
      (col_second x1 x4 x5 r (0 : Fin 1))
  have h1 : val_main_v24 (F := Ideal) (ix2 r c) = Ideal.ofBits .f32 0x3F800000#32 := (val_main_v24_apply _).trans rfl
  rw [val_main_v27_apply, hs, val_main_v25_apply, h1]
  rfl

/-- Uncertainty of the first view, as a column. -/
theorem uncert_first (r : Fin 8192) (u : Fin 1) :
    val_main_v29 (F := Ideal) x0 x2 x3 (ix2 r u) = uncert (fun c' => val_main_v12 (F := Ideal) x0 x2 x3 (ix2 r c')) := by
  have h1 : val_main_v28 (F := Ideal) (ix2 r u) = Ideal.ofBits .f32 0x447A0000#32 := (val_main_v28_apply _).trans rfl
  rw [val_main_v29_apply, col_first, h1]
  rfl

theorem uncert_second (r : Fin 8192) (u : Fin 1) :
    val_main_v31 (F := Ideal) x1 x4 x5 (ix2 r u) = uncert (fun c' => val_main_v15 (F := Ideal) x1 x4 x5 (ix2 r c')) := by
  have h1 : val_main_v30 (F := Ideal) (ix2 r u) = Ideal.ofBits .f32 0x447A0000#32 := (val_main_v30_apply _).trans rfl
  rw [val_main_v31_apply, col_second, h1]
  rfl

/-! ## The fusion -/

/-- One minus the conflict of the two opinions, as a column. -/
theorem agreement_col (r : Fin 8192) (u : Fin 1) :
    val_main_v40 (F := Ideal) x0 x1 x2 x3 x4 x5 (ix2 r u)
      = agreement (fun c' => val_main_v12 (F := Ideal) x0 x2 x3 (ix2 r c')) (fun c' => val_main_v15 (F := Ideal) x1 x4 x5 (ix2 r c')) := by
  have s1 : val_main_v32 (F := Ideal) x0 x2 x3 (ix1 r)
      = ∑ c : Fin 1000, belief (fun c' => val_main_v12 (F := Ideal) x0 x2 x3 (ix2 r c')) c := by
    rw [val_main_v32_apply]
    refine (zero_init _ _ rfl).trans (Finset.sum_congr rfl fun k _ => ?_)
    exact (congrArg (val_main_v23 (F := Ideal) x0 x2 x3) (funext fun a => by match a with | ⟨0, _⟩ => rfl | ⟨1, _⟩ => rfl)).trans
      (belief_first x0 x2 x3 r k)
  have s2 : val_main_v33 (F := Ideal) x1 x4 x5 (ix1 r)
      = ∑ c : Fin 1000, belief (fun c' => val_main_v15 (F := Ideal) x1 x4 x5 (ix2 r c')) c := by
    rw [val_main_v33_apply]
    refine (zero_init _ _ rfl).trans (Finset.sum_congr rfl fun k _ => ?_)
    exact (congrArg (val_main_v27 (F := Ideal) x1 x4 x5) (funext fun a => by match a with | ⟨0, _⟩ => rfl | ⟨1, _⟩ => rfl)).trans
      (belief_second x1 x4 x5 r k)
  have s3 : val_main_v36 (F := Ideal) x0 x1 x2 x3 x4 x5 (ix1 r)
      = ∑ c : Fin 1000, belief (fun c' => val_main_v12 (F := Ideal) x0 x2 x3 (ix2 r c')) c
          * belief (fun c' => val_main_v15 (F := Ideal) x1 x4 x5 (ix2 r c')) c := by
    rw [val_main_v36_apply]
    refine (zero_init _ _ rfl).trans (Finset.sum_congr rfl fun k _ => ?_)
    refine (congrArg (val_main_v35 (F := Ideal) x0 x1 x2 x3 x4 x5)
      (funext fun a => by match a with | ⟨0, _⟩ => rfl | ⟨1, _⟩ => rfl : idx_main_v36 (ix1 r) k = ix2 r k)).trans ?_
    rw [val_main_v35_apply, belief_first, belief_second]
    rfl
  have h1 : val_main_v39 (F := Ideal) (ix2 r u) = Ideal.ofBits .f32 0x3F800000#32 := (val_main_v39_apply _).trans rfl
  have h38 : val_main_v38 (F := Ideal) x0 x1 x2 x3 x4 x5 (ix2 r u) = val_main_v37 (F := Ideal) x0 x1 x2 x3 x4 x5 (ix1 r) :=
    (val_main_v38_apply x0 x1 x2 x3 x4 x5 (ix2 r u)).trans
      (congrArg (val_main_v37 (F := Ideal) x0 x1 x2 x3 x4 x5) (funext fun a => by match a with | ⟨0, _⟩ => rfl))
  rw [val_main_v40_apply, h1, h38, val_main_v37_apply, val_main_v34_apply, s1, s2, s3]
  rfl

/-- The combined belief at (r, q). -/
theorem combined_belief (r : Fin 8192) (q : Fin 1000) :
    val_main_v49 (F := Ideal) x0 x1 x2 x3 x4 x5 (ix2 r q)
      = Ideal.div (belief (fun c' => val_main_v12 (F := Ideal) x0 x2 x3 (ix2 r c')) q * belief (fun c' => val_main_v15 (F := Ideal) x1 x4 x5 (ix2 r c')) q
            + belief (fun c' => val_main_v12 (F := Ideal) x0 x2 x3 (ix2 r c')) q * uncert (fun c' => val_main_v15 (F := Ideal) x1 x4 x5 (ix2 r c'))
            + belief (fun c' => val_main_v15 (F := Ideal) x1 x4 x5 (ix2 r c')) q * uncert (fun c' => val_main_v12 (F := Ideal) x0 x2 x3 (ix2 r c')))
          (agreement (fun c' => val_main_v12 (F := Ideal) x0 x2 x3 (ix2 r c')) (fun c' => val_main_v15 (F := Ideal) x1 x4 x5 (ix2 r c'))) := by
  have h42 : val_main_v42 (F := Ideal) x1 x4 x5 (ix2 r q) = uncert (fun c' => val_main_v15 (F := Ideal) x1 x4 x5 (ix2 r c')) :=
    ((val_main_v42_apply x1 x4 x5 (ix2 r q)).trans
      (congrArg (val_main_v31 (F := Ideal) x1 x4 x5) (funext fun a => by match a with | ⟨0, _⟩ => rfl | ⟨1, _⟩ => rfl))).trans
      (uncert_second x1 x4 x5 r (0 : Fin 1))
  have h45 : val_main_v45 (F := Ideal) x0 x2 x3 (ix2 r q) = uncert (fun c' => val_main_v12 (F := Ideal) x0 x2 x3 (ix2 r c')) :=
    ((val_main_v45_apply x0 x2 x3 (ix2 r q)).trans
      (congrArg (val_main_v29 (F := Ideal) x0 x2 x3) (funext fun a => by match a with | ⟨0, _⟩ => rfl | ⟨1, _⟩ => rfl))).trans
      (uncert_first x0 x2 x3 r (0 : Fin 1))
  have h48 : val_main_v48 (F := Ideal) x0 x1 x2 x3 x4 x5 (ix2 r q)
      = agreement (fun c' => val_main_v12 (F := Ideal) x0 x2 x3 (ix2 r c')) (fun c' => val_main_v15 (F := Ideal) x1 x4 x5 (ix2 r c')) :=
    ((val_main_v48_apply x0 x1 x2 x3 x4 x5 (ix2 r q)).trans
      (congrArg (val_main_v40 (F := Ideal) x0 x1 x2 x3 x4 x5) (funext fun a => by match a with | ⟨0, _⟩ => rfl | ⟨1, _⟩ => rfl))).trans
      (agreement_col x0 x1 x2 x3 x4 x5 r (0 : Fin 1))
  rw [val_main_v49_apply, h48, val_main_v47_apply, val_main_v44_apply, val_main_v41_apply, val_main_v43_apply,
    val_main_v46_apply, h42, h45, belief_first, belief_second]
  rfl

/-- The combined uncertainty of row r, as a column. -/
theorem combined_uncert (r : Fin 8192) (u : Fin 1) :
    val_main_v51 (F := Ideal) x0 x1 x2 x3 x4 x5 (ix2 r u)
      = Ideal.div (uncert (fun c' => val_main_v12 (F := Ideal) x0 x2 x3 (ix2 r c')) * uncert (fun c' => val_main_v15 (F := Ideal) x1 x4 x5 (ix2 r c')))
          (agreement (fun c' => val_main_v12 (F := Ideal) x0 x2 x3 (ix2 r c')) (fun c' => val_main_v15 (F := Ideal) x1 x4 x5 (ix2 r c'))) := by
  rw [val_main_v51_apply, val_main_v50_apply, uncert_first, uncert_second, agreement_col]
  rfl

/-- The fused parameter at (r, q): Dempster's combination of row r of the two views, at class q. -/
theorem fused_ix2 (r : Fin 8192) (q : Fin 1000) :
    val_main_v57 (F := Ideal) x0 x1 x2 x3 x4 x5 (ix2 r q)
      = fuse (fun c' => val_main_v12 (F := Ideal) x0 x2 x3 (ix2 r c')) (fun c' => val_main_v15 (F := Ideal) x1 x4 x5 (ix2 r c')) q := by
  have h54 : val_main_v54 (F := Ideal) x0 x1 x2 x3 x4 x5 (ix2 r q) = val_main_v53 (F := Ideal) x0 x1 x2 x3 x4 x5 (ix2 r (0 : Fin 1)) :=
    (val_main_v54_apply x0 x1 x2 x3 x4 x5 (ix2 r q)).trans
      (congrArg (val_main_v53 (F := Ideal) x0 x1 x2 x3 x4 x5) (funext fun a => by match a with | ⟨0, _⟩ => rfl | ⟨1, _⟩ => rfl))
  have h52 : val_main_v52 (F := Ideal) (ix2 r (0 : Fin 1)) = Ideal.ofBits .f32 0x447A0000#32 := (val_main_v52_apply _).trans rfl
  have h56 : val_main_v56 (F := Ideal) (ix2 r q) = Ideal.ofBits .f32 0x3F800000#32 := (val_main_v56_apply _).trans rfl
  rw [val_main_v57_apply, h56, val_main_v55_apply, h54, val_main_v53_apply, h52, combined_belief, combined_uncert]
  rfl

/-- The fused array is `fusedArr` of the six arguments. -/
theorem fused_arr : val_main_v57 (F := Ideal) x0 x1 x2 x3 x4 x5 = fusedArr x0 x1 x2 x3 x4 x5 := by
  funext i
  obtain ⟨r, q, rfl⟩ : ∃ (r : Fin 8192) (q : Fin 1000), i = ix2 r q := ⟨i 0, i 1, eq_ix2 i⟩
  rw [fused_ix2, fusedArr_ix2]
  have e1 : (fun c' => val_main_v12 (F := Ideal) x0 x2 x3 (ix2 r c')) = alphaRow x0 x2 x3 r :=
    funext fun c' => (congrFun (alpha_first_arr x0 x2 x3) (ix2 r c')).trans (alphaArr_ix2 _ _ _ r c')
  have e2 : (fun c' => val_main_v15 (F := Ideal) x1 x4 x5 (ix2 r c')) = alphaRow x1 x4 x5 r :=
    funext fun c' => (congrFun (alpha_second_arr x1 x4 x5) (ix2 r c')).trans (alphaArr_ix2 _ _ _ r c')
  rw [e1, e2]

end Cert.ReferenceIdeal.Row

end
-- ==== Proof.LibColumn.lean ====
/-
  Two layout operations read at an index, for a per-row quantity kept as a column (a sum over the last axis with the
  reduced axis kept as a unit axis): the cast of a vector of `a` entries to an `a`-by-`1` column, and the broadcast of
  such a column across `b` columns. Both are stated over coordinates of literal extents.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to `[a, 1]` reads, at `(i, u)`, the operand at `i`, whatever the unit coordinate `u`: the two
    indices have the same row-major position, `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.KerRow.lean ====
/-
  The kernel's arithmetic read one sample (one row of a 512-row block) at a time.

  A block of the kernel holds 512 samples. Its body computes, for each view, the logits (a 512 × 2048 by 2048 × 1000
  product plus a bias row), their evidence `softplus + 1`, and then the fusion of the two views' parameters. Every
  reduction in the body runs along the class axis of one row, and every broadcast spreads a per-row column across the
  classes of that row, so the value at (row p, class q) is a function of row p of the two feature blocks alone:
  the fused parameter `Cert.Fusion.fuse` of the two rows' parameters, at q.
-/
import proofs.«145025_j84902913507853_1_alg».proof.Proof.Gen.KernelIdeal.Skeleton
import proofs.«145025_j84902913507853_1_alg».proof.Proof.Spec
import proofs.«145025_j84902913507853_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx
open Idealize.ShloMosaic.ColumnLayout Cert.Fusion

/-! ## The matrix product at an entry -/

theorem lhs_row (i : S512x1000.Idx) (k : dot_S512x2048_S2048x1000_S512x1000_1_0_0_1_n_n.contr.Idx) :
    (dot_S512x2048_S2048x1000_S512x1000_1_0_0_1_n_n.lhsIdx i k 0).val = (i 0).val := by
  unfold DotDims.lhsIdx
  rw [dif_neg (show ¬(0 : Fin S512x2048.rank) ∈ dot_S512x2048_S2048x1000_S512x1000_1_0_0_1_n_n.lhsBatch by decide),
    dif_pos (show (0 : Fin S512x2048.rank) ∈ dot_S512x2048_S2048x1000_S512x1000_1_0_0_1_n_n.lhsNonContracting by decide)]
  rfl

theorem lhs_contr (i : S512x1000.Idx) (k : dot_S512x2048_S2048x1000_S512x1000_1_0_0_1_n_n.contr.Idx) :
    (dot_S512x2048_S2048x1000_S512x1000_1_0_0_1_n_n.lhsIdx i k 1).val = (k ⟨0, by decide⟩).val :=
  dot_S512x2048_S2048x1000_S512x1000_1_0_0_1_n_n.lhsIdx_val_of_single rfl i k

theorem rhs_contr (i : S512x1000.Idx) (k : dot_S512x2048_S2048x1000_S512x1000_1_0_0_1_n_n.contr.Idx) :
    (dot_S512x2048_S2048x1000_S512x1000_1_0_0_1_n_n.rhsIdx i k 0).val = (k ⟨0, by decide⟩).val :=
  dot_S512x2048_S2048x1000_S512x1000_1_0_0_1_n_n.rhsIdx_val_of_single rfl i k

theorem rhs_col (i : S512x1000.Idx) (k : dot_S512x2048_S2048x1000_S512x1000_1_0_0_1_n_n.contr.Idx) :
    (dot_S512x2048_S2048x1000_S512x1000_1_0_0_1_n_n.rhsIdx i k 1).val = (i 1).val := by
  unfold DotDims.rhsIdx
  rw [dif_neg (show ¬(1 : Fin S2048x1000.rank) ∈ dot_S512x2048_S2048x1000_S512x1000_1_0_0_1_n_n.rhsBatch by decide),
    dif_pos (show (1 : Fin S2048x1000.rank) ∈ dot_S512x2048_S2048x1000_S512x1000_1_0_0_1_n_n.rhsNonContracting by decide)]
  rfl

/-- Entry (p, q) of a 512 × 2048 by 2048 × 1000 product into a zero accumulator: the sum over the 2048 shared
    coordinates of row p of the left factor against column q of the right one. -/
theorem matmul_ix2 (l : FVec Ideal S512x2048 .bf16) (r : FVec Ideal S2048x1000 .bf16) (p : Fin 512) (q : Fin 1000) :
    matmul dot_S512x2048_S2048x1000_S512x1000_1_0_0_1_n_n none l r (constant S512x1000 .f32 0x00000000#32) (ix2 p q)
      = ∑ k : Fin 2048, l (ix2 p k) * r (ix2 k q) := by
  simp only [matmul]
  rw [Ideal.matmul_constant_zero_apply,
    ← Equiv.sum_comp (contrEquiv1 dot_S512x2048_S2048x1000_S512x1000_1_0_0_1_n_n 2048 rfl rfl).symm]
  refine Finset.sum_congr rfl fun k _ => ?_
  have hk := contrEquiv1_symm_val dot_S512x2048_S2048x1000_S512x1000_1_0_0_1_n_n 2048 rfl rfl k
  have el : dot_S512x2048_S2048x1000_S512x1000_1_0_0_1_n_n.lhsIdx (ix2 p q)
      ((contrEquiv1 dot_S512x2048_S2048x1000_S512x1000_1_0_0_1_n_n 2048 rfl rfl).symm k) = ix2 p k :=
    funext fun a => Fin.ext (by
      match a with
      | ⟨0, _⟩ => exact lhs_row _ _
      | ⟨1, _⟩ => exact (lhs_contr _ _).trans hk)
  have er : dot_S512x2048_S2048x1000_S512x1000_1_0_0_1_n_n.rhsIdx (ix2 p q)
      ((contrEquiv1 dot_S512x2048_S2048x1000_S512x1000_1_0_0_1_n_n 2048 rfl rfl).symm k) = ix2 k q :=
    funext fun a => Fin.ext (by
      match a with
      | ⟨0, _⟩ => exact (rhs_contr _ _).trans hk
      | ⟨1, _⟩ => exact rhs_col _ _)
  rw [el, er]

/-! ## One view: logits and evidence -/

/-- A logit of the block: row p of the features against column q of the (transposed) weights, plus the bias row at q.
    The change of float format on the way into the product is the identity on the extended reals. -/
theorem logit_ix2 (x : FVec Ideal S512x2048 .f32) (w : FVec Ideal S2048x1000 .bf16) (b : FVec Ideal S1x1000 .f32)
    (p : Fin 512) (q : Fin 1000) :
    k0_pay2 x w b (ix2 p q) = (∑ k : Fin 2048, x (ix2 p k) * w (ix2 k q)) + b (ix2 (0 : Fin 1) q) := by
  unfold k0_pay2
  show matmul dot_S512x2048_S2048x1000_S512x1000_1_0_0_1_n_n none (truncf .bf16 x _) (shapeCast S2048x1000 w _)
      (constant S512x1000 .f32 0x00000000#32) (ix2 p q)
    + broadcastTo S512x1000 (shapeCast S1x1000 b _) _ (ix2 p q) = _
  rw [matmul_ix2, broadcastTo_1b_ab_apply, shapeCast_self, shapeCast_self]
  rfl

/-- The first view's parameters are the evidence of its logits, entry by entry. -/
theorem alpha_first (x : FVec Ideal S512x2048 .f32) (w : FVec Ideal S2048x1000 .bf16) (b : FVec Ideal S1x1000 .f32)
    (j : S512x1000.Idx) : k0_pay3 (F := Ideal) x w b j = evidence (k0_pay2 (F := Ideal) x w b j) := by
  refine Eq.trans ?_ (evidence_of_zero_sub (k0_pay2 (F := Ideal) x w b j))
  rfl

/-- So are the second view's, which the body assembles from four pieces of its logits. -/
theorem alpha_second (x : FVec Ideal S512x2048 .f32) (w : FVec Ideal S2048x1000 .bf16) (b : FVec Ideal S1x1000 .f32)
    (j : S512x1000.Idx) :
    k0_pay8 (F := Ideal) (k0_pay4 (F := Ideal) x w b) (k0_pay5 (F := Ideal) x w b) (k0_pay6 (F := Ideal) x w b)
        (k0_pay7 (F := Ideal) x w b) j
      = evidence (k0_pay2 (F := Ideal) x w b j) := by
  refine Eq.trans ?_ (evidence_of_zero_sub (k0_pay2 (F := Ideal) x w b j))
  rfl

/-! ## Row sums kept as a column, and a column spread over a row -/

/-- The sum of a block's row p over its 1000 classes, kept as entry (p, 0) of a column. -/
theorem rowsum_ix2 (v : FVec Ideal S512x1000 .f32) (p : Fin 512) (u : Fin 1) :
    k0_pay9 v (ix2 p u) = ∑ c : Fin 1000, v (ix2 p c) := by
  unfold k0_pay9
  refine (shapeCast_a_a1_apply _ _ p u).trans ?_
  refine (Ideal.multiReduction_add_single v _ _ _ _ (ix1 p)).trans ?_
  refine Finset.sum_congr rfl fun k _ => ?_
  exact congrArg v (funext fun a => Fin.ext (by match a with | ⟨0, _⟩ => rfl | ⟨1, _⟩ => rfl))

/-- A column spread over the classes reads, at (p, q), the column's entry of row p. -/
theorem spread_ix2 (w : FVec Ideal S512x1 .f32) (h : S512x1.Broadcasts S512x1000) (p : Fin 512) (q : Fin 1000) :
    broadcastTo S512x1000 w h (ix2 p q) = w (ix2 p (0 : Fin 1)) :=
  broadcastTo_a1_ab_apply w h p q

/-! ## The fusion of the two views, one row at a time

  Below `a` is the first view's block of parameters and `(m, d, g, s)` are the four pieces from which the body
  assembles the second view's block `k0_pay8 m d g s`. -/

section Fusion

variable (a : FVec Ideal S512x1000 .f32) (m d : FVec Ideal S512x1000 .f32) (g : IVec S512x1000 1) (s : FVec Ideal S512x1000 .f32)

/-- Belief masses of the first view. -/
theorem belief_first (p : Fin 512) (c : Fin 1000) :
    k0_pay11 a (ix2 p c) = belief (fun c' => a (ix2 p c')) c := by
  unfold k0_pay11 belief
  show Ideal.div (a (ix2 p c) - Ideal.ofBits .f32 0x3F800000#32) (broadcastTo S512x1000 (k0_pay9 a) _ (ix2 p c)) = _
  rw [spread_ix2, rowsum_ix2]

/-- Belief masses of the second view. -/
theorem belief_second (p : Fin 512) (c : Fin 1000) :
    k0_pay12 m d g s (ix2 p c) = belief (fun c' => k0_pay8 m d g s (ix2 p c')) c := by
  unfold k0_pay12 belief
  show Ideal.div (k0_pay8 m d g s (ix2 p c) - Ideal.ofBits .f32 0x3F800000#32)
    (broadcastTo S512x1000 (k0_pay9 (k0_pay8 m d g s)) _ (ix2 p c)) = _
  rw [spread_ix2, rowsum_ix2]

/-- Uncertainty of the first view. -/
theorem uncert_first (p : Fin 512) (u : Fin 1) :
    k0_pay13 a (ix2 p u) = uncert (fun c' => a (ix2 p c')) := by
  unfold k0_pay13 uncert
  show Ideal.div (Ideal.ofBits .f32 0x447A0000#32) (k0_pay9 a (ix2 p u)) = _
  rw [rowsum_ix2]

/-- Uncertainty of the second view. -/
theorem uncert_second (p : Fin 512) (u : Fin 1) :
    k0_pay14 m d g s (ix2 p u) = uncert (fun c' => k0_pay8 m d g s (ix2 p c')) := by
  unfold k0_pay14 uncert
  show Ideal.div (Ideal.ofBits .f32 0x447A0000#32) (k0_pay9 (k0_pay8 m d g s) (ix2 p u)) = _
  rw [rowsum_ix2]

/-- One minus the conflict of the two opinions. -/
theorem agreement_ix2 (p : Fin 512) (u : Fin 1) :
    k0_pay15 a m d g s (ix2 p u)
      = agreement (fun c' => a (ix2 p c')) (fun c' => k0_pay8 m d g s (ix2 p c')) := by
  unfold k0_pay15 agreement
  show Ideal.ofBits .f32 0x3F800000#32
      - (k0_pay9 (k0_pay11 a) (ix2 p u) * k0_pay9 (k0_pay12 m d g s) (ix2 p u)
          - k0_pay9 (mulf (k0_pay11 a) (k0_pay12 m d g s)) (ix2 p u)) = _
  rw [rowsum_ix2, rowsum_ix2, rowsum_ix2]
  simp only [mulf_apply, belief_first, belief_second]

/-- The combined belief at (p, q). -/
theorem combined_belief_ix2 (p : Fin 512) (q : Fin 1000) :
    k0_pay16 a m d g s (ix2 p q)
      = Ideal.div (belief (fun c' => a (ix2 p c')) q * belief (fun c' => k0_pay8 m d g s (ix2 p c')) q
            + belief (fun c' => a (ix2 p c')) q * uncert (fun c' => k0_pay8 m d g s (ix2 p c'))
            + belief (fun c' => k0_pay8 m d g s (ix2 p c')) q * uncert (fun c' => a (ix2 p c')))
          (agreement (fun c' => a (ix2 p c')) (fun c' => k0_pay8 m d g s (ix2 p c'))) := by
  unfold k0_pay16
  show Ideal.div (k0_pay11 a (ix2 p q) * k0_pay12 m d g s (ix2 p q)
        + k0_pay11 a (ix2 p q) * broadcastTo S512x1000 (k0_pay14 m d g s) _ (ix2 p q)
        + k0_pay12 m d g s (ix2 p q) * broadcastTo S512x1000 (k0_pay13 a) _ (ix2 p q))
      (broadcastTo S512x1000 (k0_pay15 a m d g s) _ (ix2 p q)) = _
  rw [spread_ix2, spread_ix2, spread_ix2, belief_first, belief_second, uncert_first, uncert_second, agreement_ix2]

/-- The combined uncertainty of row p. -/
theorem combined_uncert_ix2 (p : Fin 512) (u : Fin 1) :
    k0_pay17 a m d g s (ix2 p u)
      = Ideal.div (uncert (fun c' => a (ix2 p c')) * uncert (fun c' => k0_pay8 m d g s (ix2 p c')))
          (agreement (fun c' => a (ix2 p c')) (fun c' => k0_pay8 m d g s (ix2 p c'))) := by
  unfold k0_pay17
  show Ideal.div (k0_pay13 a (ix2 p u) * k0_pay14 m d g s (ix2 p u)) (k0_pay15 a m d g s (ix2 p u)) = _
  rw [uncert_first, uncert_second, agreement_ix2]

/-- The fused parameter at (p, q): Dempster's combination of row p of the two views, at class q. -/
theorem fused_ix2 (p : Fin 512) (q : Fin 1000) :
    k0_pay1 (k0_pay16 a m d g s) (k0_pay17 a m d g s) (Scalar.ofBits .f32 0x447A0000#32) (ix2 p q)
      = fuse (fun c' => a (ix2 p c')) (fun c' => k0_pay8 m d g s (ix2 p c')) q := by
  unfold k0_pay1 fuse
  show k0_pay16 a m d g s (ix2 p q)
        * broadcastTo S512x1000 (divf (broadcast S512x1 (Scalar.ofBits .f32 0x447A0000#32)) (k0_pay17 a m d g s)) _ (ix2 p q)
      + Ideal.ofBits .f32 0x3F800000#32 = _
  rw [spread_ix2]
  show k0_pay16 a m d g s (ix2 p q)
        * Ideal.div (Ideal.ofBits .f32 0x447A0000#32) (k0_pay17 a m d g s (ix2 p (0 : Fin 1)))
      + Ideal.ofBits .f32 0x3F800000#32 = _
  rw [combined_belief_ix2, combined_uncert_ix2]

end Fusion

end Cert.KernelIdeal.Row

end
-- ==== Proof.KerPoint.lean ====
/-
  What one grid point of the kernel leaves in its three result blocks, entry by entry, in terms of the arrays the
  blocks are cut from.

  The body stores three 512 × 1000 blocks: the fused parameters and the two views' own parameters. Suppose row p of the
  two feature blocks is row r of the feature arrays, the weight blocks are the weight arrays transposed, and the bias
  rows are the bias vectors. Then entry (p, q) of the three blocks is entry (r, q) of `Cert.Fusion.fusedArr` and of the
  two `Cert.Fusion.alphaArr`: a logit of the block is the logit of row r, and everything after the logits is a
  function of the row.
-/
import proofs.«145025_j84902913507853_1_alg».proof.Proof.Gen.KernelIdeal.Frame
import proofs.«145025_j84902913507853_1_alg».proof.Proof.KerRow

noncomputable section

namespace Cert.KernelIdeal.Point

open Cert.KernelIdeal Cert.KernelIdeal.Gen Idealize.ShloMosaic Idealize.ShloMosaic.ValueIdx Cert.Fusion Cert.KernelIdeal.Row

theorem hz : (![0, 0] : Fin 2 → Nat) = fun _ => 0 := funext fun a => by fin_cases a <;> rfl

/-- The evidence of a block's logit at (p, q) is the parameter of sample r at class q, when row p of the feature block
    is row r of the features, the weight block is the weights transposed and the bias row is the bias. -/
theorem alpha_row (x : FVec Ideal S512x2048 .f32) (w : FVec Ideal S2048x1000 .bf16) (b : FVec Ideal S1x1000 .f32)
    (X : (⟨2, ![8192, 2048]⟩ : Shape).Idx → EReal) (W : (⟨2, ![1000, 2048]⟩ : Shape).Idx → EReal)
    (B : (⟨1, ![1000]⟩ : Shape).Idx → EReal) (p : Fin 512) (r : Fin 8192)
    (hx : ∀ k : Fin 2048, x (ix2 p k) = X (ix2 r k))
    (hw : ∀ (k : Fin 2048) (q : Fin 1000), w (ix2 k q) = W (ix2 q k))
    (hb : ∀ q : Fin 1000, b (ix2 (0 : Fin 1) q) = B (ix1 q)) (q : Fin 1000) :
    evidence (k0_pay2 (F := Ideal) x w b (ix2 p q)) = alphaRow X W B r q := by
  rw [logit_ix2]
  unfold alphaRow logit
  refine congrArg evidence (congrArg₂ (· + ·) (Finset.sum_congr rfl fun k _ => ?_) (hb q))
  rw [hx k, hw k q]

section Blocks

variable (x0 x1 : FVec Ideal S512x2048 .f32) (x2 x3 : FVec Ideal S2048x1000 .bf16) (x4 x5 : FVec Ideal S1x1000 .f32)

/-- The block of fused parameters is the body's last payload of the six loaded blocks. -/
theorem fused_block_eq :
    out0_6 (F := Ideal) x0 x1 x2 x3 x4 x5
      = k0_pay1 (F := Ideal)
          (k0_pay16 (F := Ideal) (k0_pay3 (F := Ideal) x0 x2 x4) (k0_pay4 (F := Ideal) x1 x3 x5) (k0_pay5 (F := Ideal) x1 x3 x5)
            (k0_pay6 (F := Ideal) x1 x3 x5) (k0_pay7 (F := Ideal) x1 x3 x5))
          (k0_pay17 (F := Ideal) (k0_pay3 (F := Ideal) x0 x2 x4) (k0_pay4 (F := Ideal) x1 x3 x5) (k0_pay5 (F := Ideal) x1 x3 x5)
            (k0_pay6 (F := Ideal) x1 x3 x5) (k0_pay7 (F := Ideal) x1 x3 x5))
          (Scalar.ofBits .f32 0x447A0000#32) := by
  unfold out0_6
  rw [View.canon_unit_zero hz]
  simp only [View.ld_unit_zero (S := S512x2048) hz, View.ld_unit_zero (S := S2048x1000) hz, View.ld_unit_zero (S := S1x1000) hz]

/-- The first view's block. -/
theorem first_block_eq : out0_7 (F := Ideal) x0 x1 x2 x3 x4 x5 = k0_pay3 (F := Ideal) x0 x2 x4 := by
  unfold out0_7
  rw [View.canon_unit_zero hz]
  simp only [View.ld_unit_zero (S := S512x2048) hz, View.ld_unit_zero (S := S2048x1000) hz, View.ld_unit_zero (S := S1x1000) hz]

/-- The second view's block. -/
theorem second_block_eq :
    out0_8 (F := Ideal) x0 x1 x2 x3 x4 x5
      = k0_pay8 (F := Ideal) (k0_pay4 (F := Ideal) x1 x3 x5) (k0_pay5 (F := Ideal) x1 x3 x5) (k0_pay6 (F := Ideal) x1 x3 x5)
          (k0_pay7 (F := Ideal) x1 x3 x5) := by
  unfold out0_8
  rw [View.canon_unit_zero hz]
  simp only [View.ld_unit_zero (S := S512x2048) hz, View.ld_unit_zero (S := S2048x1000) hz, View.ld_unit_zero (S := S1x1000) hz]

variable (X Y : (⟨2, ![8192, 2048]⟩ : Shape).Idx → EReal) (Wx Wy : (⟨2, ![1000, 2048]⟩ : Shape).Idx → EReal)
  (bx by' : (⟨1, ![1000]⟩ : Shape).Idx → EReal) (p : Fin 512) (r : Fin 8192)

/-- Entry (p, q) of the first view's block is the parameter of sample r. -/
theorem first_block_point
    (hx : ∀ k : Fin 2048, x0 (ix2 p k) = X (ix2 r k))
    (hw : ∀ (k : Fin 2048) (q : Fin 1000), x2 (ix2 k q) = Wx (ix2 q k))
    (hb : ∀ q : Fin 1000, x4 (ix2 (0 : Fin 1) q) = bx (ix1 q)) (q : Fin 1000) :
    out0_7 (F := Ideal) x0 x1 x2 x3 x4 x5 (ix2 p q) = alphaRow X Wx bx r q := by
  rw [first_block_eq, alpha_first]
  exact alpha_row x0 x2 x4 X Wx bx p r hx hw hb q

/-- Entry (p, q) of the second view's block is the parameter of sample r. -/
theorem second_block_point
    (hy : ∀ k : Fin 2048, x1 (ix2 p k) = Y (ix2 r k))
    (hw : ∀ (k : Fin 2048) (q : Fin 1000), x3 (ix2 k q) = Wy (ix2 q k))
    (hb : ∀ q : Fin 1000, x5 (ix2 (0 : Fin 1) q) = by' (ix1 q)) (q : Fin 1000) :
    out0_8 (F := Ideal) x0 x1 x2 x3 x4 x5 (ix2 p q) = alphaRow Y Wy by' r q := by
  rw [second_block_eq, alpha_second]
  exact alpha_row x1 x3 x5 Y Wy by' p r hy hw hb q

/-- Entry (p, q) of the fused block is Dempster's combination of sample r's two parameter rows, at q. -/
theorem fused_block_point
    (hx : ∀ k : Fin 2048, x0 (ix2 p k) = X (ix2 r k)) (hy : ∀ k : Fin 2048, x1 (ix2 p k) = Y (ix2 r k))
    (hwx : ∀ (k : Fin 2048) (q : Fin 1000), x2 (ix2 k q) = Wx (ix2 q k))
    (hwy : ∀ (k : Fin 2048) (q : Fin 1000), x3 (ix2 k q) = Wy (ix2 q k))
    (hbx : ∀ q : Fin 1000, x4 (ix2 (0 : Fin 1) q) = bx (ix1 q))
    (hby : ∀ q : Fin 1000, x5 (ix2 (0 : Fin 1) q) = by' (ix1 q)) (q : Fin 1000) :
    out0_6 (F := Ideal) x0 x1 x2 x3 x4 x5 (ix2 p q) = fuse (alphaRow X Wx bx r) (alphaRow Y Wy by' r) q := by
  rw [fused_block_eq, fused_ix2]
  refine congrArg₂ (fun a1 a2 => fuse a1 a2 q) (funext fun c' => ?_) (funext fun c' => ?_)
  · rw [alpha_first]
    exact alpha_row x0 x2 x4 X Wx bx p r hx hwx hbx c'
  · rw [alpha_second]
    exact alpha_row x1 x3 x5 Y Wy by' p r hy hwy hby c'

end Blocks

end Cert.KernelIdeal.Point

end
-- ==== Proof.KerBlocks.lean ====
/-
  From the kernel's sixteen blocks to its three result arrays.

  Grid point t works on samples 512 t … 512 t + 511: its two feature blocks are those rows of the two feature arrays,
  while the weight and bias blocks are, at every point, the whole (transposed) weights and the bias, prepared once
  before the launch. By the entry-by-entry reading of a point, what point t writes back through each result window is
  therefore block t of one whole-array function of the six arguments, and the sixteen blocks cover the 8192 rows: the
  arrays end holding `fusedArr` and the two `alphaArr`.
-/
import proofs.«145025_j84902913507853_1_alg».proof.Proof.Gen.KernelIdeal.Value
import proofs.«145025_j84902913507853_1_alg».proof.Proof.KerPoint
import Idealize.ShloMosaic.Lib.Pipeline.Value
import Idealize.ShloMosaic.Lib.StableHlo.Run
import Idealize.ShloMosaic.Lib.ValueLayout

noncomputable section

namespace Cert.KernelIdeal.Blocks

open Cert.KernelIdeal Cert.KernelIdeal.Gen Cert.KernelIdeal.Value Cert.KernelIdeal.Point
open Idealize.ShloMosaic Idealize.ShloMosaic.TcCoe Idealize.SL.Sem Idealize.ShloMosaic.ValueIdx Idealize.ShloMosaic.StableHlo Cert.Fusion
open Idealize.ShloMosaic.Pipeline (Dat)

variable (m : (ℓ : Loc nD τ sig) → Buf (Elt Ideal) ℓ) (ρ : Dev nD → PrngReg)

/-- The printed index maps, decided over the sixteen grid points: the feature windows and the three result windows
    are at row block t, the weight and bias windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## The input blocks, read off the arrays -/

/-- Row p of the first view's feature block at point t is row 512 t + p of the features. -/
theorem rows_first (c : Dev nD) (t : Fin cfg0.N) (p : Fin 512) (r : Fin 8192) (hr : r.val = t.val * 512 + p.val) (k : Fin 2048) :
    (iblk m c 0 t : Vec Ideal S512x2048 .f32) (ix2 p k)
      = ((m ((c : Thread nD τ).loc main_arg0)) : S8192x2048.Idx → EReal) (ix2 r k) := by
  unfold iblk
  rw [View.read_apply]
  show V m c main_arg0 (((cfg0.win 0).blk t).view.emb (ix2 p k)) = _
  rw [V_main_arg0]
  refine congrArg _ (funext fun a => Fin.ext ?_)
  obtain ⟨e00, e01, e10, e11, e20, e21, e30, e31, e40, e41, e50, e51, e60, e61, e70, e71, e80, e81⟩ := idx_facts t
  match a with
  | ⟨0, _⟩ => show win0_0.index t (0 : Fin 2) * 512 + 1 * p.val = r.val; rw [e00, hr]; omega
  | ⟨1, _⟩ => show win0_0.index t (1 : Fin 2) * 2048 + 1 * k.val = k.val; rw [e01]; omega

/-- The same for the second view. -/
theorem rows_second (c : Dev nD) (t : Fin cfg0.N) (p : Fin 512) (r : Fin 8192) (hr : r.val = t.val * 512 + p.val) (k : Fin 2048) :
    (iblk m c 1 t : Vec Ideal S512x2048 .f32) (ix2 p k)
      = ((m ((c : Thread nD τ).loc main_arg1)) : S8192x2048.Idx → EReal) (ix2 r k) := by
  unfold iblk
  rw [View.read_apply]
  show V m c main_arg1 (((cfg0.win 1).blk t).view.emb (ix2 p k)) = _
  rw [V_main_arg1]
  refine congrArg _ (funext fun a => Fin.ext ?_)
  obtain ⟨e00, e01, e10, e11, e20, e21, e30, e31, e40, e41, e50, e51, e60, e61, e70, e71, e80, e81⟩ := idx_facts t
  match a with
  | ⟨0, _⟩ => show win0_1.index t (0 : Fin 2) * 512 + 1 * p.val = r.val; rw [e10, hr]; omega
  | ⟨1, _⟩ => show win0_1.index t (1 : Fin 2) * 2048 + 1 * k.val = k.val; rw [e11]; omega

/-- The first view's weight block is the weights transposed (the narrowing of the float format on the way changes nothing on the extended reals). -/
theorem weights_first (c : Dev nD) (t : Fin cfg0.N) (k : Fin 2048) (q : Fin 1000) :
    (iblk m c 2 t : Vec Ideal S2048x1000 .bf16) (ix2 k q)
      = ((m ((c : Thread nD τ).loc main_arg2)) : S1000x2048.Idx → EReal) (ix2 q k) := by
  have e : (V m c main_v1 : S2048x1000.Idx → EReal)
      = (truncf (F := Ideal) .bf16 (transpose S2048x1000 [1, 0] (m ((c : Thread nD τ).loc main_arg2) : S1000x2048.Idx → EReal)
          transposes_S1000x2048_S2048x1000_1_0) bitsLt_bf16_f32 : S2048x1000.Idx → EReal) := by
    dsimp only [V, hostOps0]; after_results
  have hi : ((cfg0.win 2).blk t).view.emb (ix2 k q) = (ix2 k q : S2048x1000.Idx) :=
    funext fun a => Fin.ext (by
      obtain ⟨e00, e01, e10, e11, e20, e21, e30, e31, e40, e41, e50, e51, e60, e61, e70, e71, e80, e81⟩ := idx_facts t
      match a with
      | ⟨0, _⟩ => show win0_2.index t (0 : Fin 2) * 2048 + 1 * k.val = k.val; rw [e20]; omega
      | ⟨1, _⟩ => show win0_2.index t (1 : Fin 2) * 1000 + 1 * q.val = q.val; rw [e21]; omega)
  unfold iblk
  rw [View.read_apply]
  show V m c main_v1 (((cfg0.win 2).blk t).view.emb (ix2 k q)) = _
  rw [hi, e]
  show transpose S2048x1000 [1, 0] (m ((c : Thread nD τ).loc main_arg2)) transposes_S1000x2048_S2048x1000_1_0 (ix2 k q) = _
  exact transpose_ix2_apply _ _ k q

/-- The same for the second view. -/
theorem weights_second (c : Dev nD) (t : Fin cfg0.N) (k : Fin 2048) (q : Fin 1000) :
    (iblk m c 3 t : Vec Ideal S2048x1000 .bf16) (ix2 k q)
      = ((m ((c : Thread nD τ).loc main_arg4)) : S1000x2048.Idx → EReal) (ix2 q k) := by
  have e : (V m c main_v3 : S2048x1000.Idx → EReal)
      = (truncf (F := Ideal) .bf16 (transpose S2048x1000 [1, 0] (m ((c : Thread nD τ).loc main_arg4) : S1000x2048.Idx → EReal)
          transposes_S1000x2048_S2048x1000_1_0) bitsLt_bf16_f32 : S2048x1000.Idx → EReal) := by
    dsimp only [V, hostOps0]; after_results
  have hi : ((cfg0.win 3).blk t).view.emb (ix2 k q) = (ix2 k q : S2048x1000.Idx) :=
    funext fun a => Fin.ext (by
      obtain ⟨e00, e01, e10, e11, e20, e21, e30, e31, e40, e41, e50, e51, e60, e61, e70, e71, e80, e81⟩ := idx_facts t
      match a with
      | ⟨0, _⟩ => show win0_3.index t (0 : Fin 2) * 2048 + 1 * k.val = k.val; rw [e30]; omega
      | ⟨1, _⟩ => show win0_3.index t (1 : Fin 2) * 1000 + 1 * q.val = q.val; rw [e31]; omega)
  unfold iblk
  rw [View.read_apply]
  show V m c main_v3 (((cfg0.win 3).blk t).view.emb (ix2 k q)) = _
  rw [hi, e]
  show transpose S2048x1000 [1, 0] (m ((c : Thread nD τ).loc main_arg4)) transposes_S1000x2048_S2048x1000_1_0 (ix2 k q) = _
  exact transpose_ix2_apply _ _ k q

/-- The first view's bias block is the bias vector as one row. -/
theorem bias_first (c : Dev nD) (t : Fin cfg0.N) (q : Fin 1000) :
    (iblk m c 4 t : Vec Ideal S1x1000 .f32) (ix2 (0 : Fin 1) q)
      = ((m ((c : Thread nD τ).loc main_arg3)) : S1000.Idx → EReal) (ix1 q) := by
  have e : (V m c main_v4 : S1x1000.Idx → EReal)
      = shapeCast S1x1000 (m ((c : Thread nD τ).loc main_arg3)) shapeCasts_S1000_S1x1000 := by
    dsimp only [V, hostOps0]; after_results; rfl
  have hi : ((cfg0.win 4).blk t).view.emb (ix2 (0 : Fin 1) q) = (ix2 (0 : Fin 1) q : S1x1000.Idx) :=
    funext fun a => Fin.ext (by
      obtain ⟨e00, e01, e10, e11, e20, e21, e30, e31, e40, e41, e50, e51, e60, e61, e70, e71, e80, e81⟩ := idx_facts t
      match a with
      | ⟨0, _⟩ => show win0_4.index t (0 : Fin 2) * 1 + 1 * 0 = 0; rw [e40]
      | ⟨1, _⟩ => show win0_4.index t (1 : Fin 2) * 1000 + 1 * q.val = q.val; rw [e41]; omega)
  unfold iblk
  rw [View.read_apply]
  show V m c main_v4 (((cfg0.win 4).blk t).view.emb (ix2 (0 : Fin 1) q)) = _
  rw [hi, e]
  exact shapeCast_a_1a_apply _ _ (0 : Fin 1) q

/-- The same for the second view. -/
theorem bias_second (c : Dev nD) (t : Fin cfg0.N) (q : Fin 1000) :
    (iblk m c 5 t : Vec Ideal S1x1000 .f32) (ix2 (0 : Fin 1) q)
      = ((m ((c : Thread nD τ).loc main_arg5)) : S1000.Idx → EReal) (ix1 q) := by
  have e : (V m c main_v5 : S1x1000.Idx → EReal)
      = shapeCast S1x1000 (m ((c : Thread nD τ).loc main_arg5)) shapeCasts_S1000_S1x1000 := by
    dsimp only [V, hostOps0]; after_results; rfl
  have hi : ((cfg0.win 5).blk t).view.emb (ix2 (0 : Fin 1) q) = (ix2 (0 : Fin 1) q : S1x1000.Idx) :=
    funext fun a => Fin.ext (by
      obtain ⟨e00, e01, e10, e11, e20, e21, e30, e31, e40, e41, e50, e51, e60, e61, e70, e71, e80, e81⟩ := idx_facts t
      match a with
      | ⟨0, _⟩ => show win0_5.index t (0 : Fin 2) * 1 + 1 * 0 = 0; rw [e50]
      | ⟨1, _⟩ => show win0_5.index t (1 : Fin 2) * 1000 + 1 * q.val = q.val; rw [e51]; omega)
  unfold iblk
  rw [View.read_apply]
  show V m c main_v5 (((cfg0.win 5).blk t).view.emb (ix2 (0 : Fin 1) q)) = _
  rw [hi, e]
  exact shapeCast_a_1a_apply _ _ (0 : Fin 1) q

/-! ## The three result windows -/

/-- An index of the result array lies in point t's block of window 6 iff each coordinate is in the block's range. -/
theorem mem_blk6 (t : Fin cfg0.N) (i : S8192x1000.Idx) :
    i ∈ ((cfg0.win 6).blk t).view.set ↔ ∀ a : Fin 2, win0_6.index t a * S512x1000.size a ≤ (i a).val
      ∧ (i a).val < win0_6.index t a * S512x1000.size a + S512x1000.size a := by
  show i ∈ ((View.whole main_v6_0).slice (win0_6.rect t)).set ↔ _
  rw [View.set_slice_whole, Rect.mem_set_unit]
  exact Iff.rfl

/-- Every sample's row lies in the block of the point that holds it: point `r / 512`. -/
theorem cover6 (i : S8192x1000.Idx) :
    ∃ t : Fin cfg0.N, (cfg0.win 6).flush t = true ∧ i ∈ ((cfg0.win 6).blk t).view.set := by
  have hN : grid0.N = 16 := N_0
  have hi0 : (i 0).val < 8192 := (i 0).isLt
  have hi1 : (i 1).val < 1000 := (i 1).isLt
  obtain ⟨t, ht⟩ : ∃ t : Fin cfg0.N, t.val = (i 0).val / 512 :=
    ⟨⟨(i 0).val / 512, by show (i 0).val / 512 < grid0.N; omega⟩, rfl⟩
  refine ⟨t, flush0_6 t, ?_⟩
  rw [mem_blk6]
  obtain ⟨e00, e01, e10, e11, e20, e21, e30, e31, e40, e41, e50, e51, e60, e61, e70, e71, e80, e81⟩ := idx_facts t
  intro a
  match a with
  | ⟨0, _⟩ =>
    show win0_6.index t (0 : Fin 2) * 512 ≤ (i 0).val ∧ (i 0).val < win0_6.index t (0 : Fin 2) * 512 + 512
    rw [e60, ht]; omega
  | ⟨1, _⟩ =>
    show win0_6.index t (1 : Fin 2) * 1000 ≤ (i 1).val ∧ (i 1).val < win0_6.index t (1 : Fin 2) * 1000 + 1000
    rw [e61]; omega

/-- What point t writes back through window 6 is its block of the fused parameters. -/
theorem flushed6_eq (c : Dev nD) (t : Fin cfg0.N) :
    (dats m 0 c).flushed 6 t = ((cfg0.win 6).blk t).view.read (Elt Ideal) (fusedArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [flushed6]
  funext j
  have hN : grid0.N = 16 := N_0
  have ht : t.val < grid0.N := t.isLt
  have hj0 : (j 0).val < 512 := (j 0).isLt
  have hj1 : (j 1).val < 1000 := (j 1).isLt
  obtain ⟨e00, e01, e10, e11, e20, e21, e30, e31, e40, e41, e50, e51, e60, e61, e70, e71, e80, e81⟩ := idx_facts t
  have hr : t.val * 512 + (j 0).val < 8192 := by omega
  have hj : ((cfg0.win 6).xinj (grid0.coords t) j : S512x1000.Idx)
      = ix2 (⟨(j 0).val, hj0⟩ : Fin 512) (⟨(j 1).val, hj1⟩ : Fin 1000) :=
    funext fun a => by match a with | ⟨0, _⟩ => rfl | ⟨1, _⟩ => rfl
  have hi : (((cfg0.win 6).blk t).view.emb j : S8192x1000.Idx)
      = ix2 (⟨t.val * 512 + (j 0).val, hr⟩ : Fin 8192) (⟨(j 1).val, hj1⟩ : Fin 1000) :=
    funext fun a => Fin.ext (by
      match a with
      | ⟨0, _⟩ => show win0_6.index t (0 : Fin 2) * 512 + 1 * (j 0).val = t.val * 512 + (j 0).val; rw [e60]; omega
      | ⟨1, _⟩ => show win0_6.index t (1 : Fin 2) * 1000 + 1 * (j 1).val = (j 1).val; rw [e61]; omega)
  show out0_6 (F := Ideal) (iblk m c 0 t) (iblk m c 1 t) (iblk m c 2 t) (iblk m c 3 t) (iblk m c 4 t) (iblk m c 5 t)
      ((cfg0.win 6).xinj (grid0.coords t) j)
    = (fusedArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (((cfg0.win 6).blk t).view.emb j)
  refine (congrArg _ hj).trans (Eq.trans ?_ (congrArg (fusedArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) hi).symm)
  exact fused_block_point (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) ⟨(j 0).val, hj0⟩ ⟨t.val * 512 + (j 0).val, hr⟩
    (fun k => rows_first m c t _ _ rfl k) (fun k => rows_second m c t _ _ rfl k) (fun k q => weights_first m c t k q) (fun k q => weights_second m c t k q) (fun q => bias_first m c t q) (fun q => bias_second m c t q) ⟨(j 1).val, hj1⟩

/-- So the array ends holding the fused parameters: the sixteen blocks cover it. -/
theorem final6 (c : Dev nD) : (dats m 0 c).arrAt 6 cfg0.N = (fusedArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (dats m 0 c).arrAt_eq_of_cover 6 (fusedArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (fun t _ => flushed6_eq m c t) cover6

/-- An index of the result array lies in point t's block of window 7 iff each coordinate is in the block's range. -/
theorem mem_blk7 (t : Fin cfg0.N) (i : S8192x1000.Idx) :
    i ∈ ((cfg0.win 7).blk t).view.set ↔ ∀ a : Fin 2, win0_7.index t a * S512x1000.size a ≤ (i a).val
      ∧ (i a).val < win0_7.index t a * S512x1000.size a + S512x1000.size a := by
  show i ∈ ((View.whole main_v6_1).slice (win0_7.rect t)).set ↔ _
  rw [View.set_slice_whole, Rect.mem_set_unit]
  exact Iff.rfl

/-- Every sample's row lies in the block of the point that holds it: point `r / 512`. -/
theorem cover7 (i : S8192x1000.Idx) :
    ∃ t : Fin cfg0.N, (cfg0.win 7).flush t = true ∧ i ∈ ((cfg0.win 7).blk t).view.set := by
  have hN : grid0.N = 16 := N_0
  have hi0 : (i 0).val < 8192 := (i 0).isLt
  have hi1 : (i 1).val < 1000 := (i 1).isLt
  obtain ⟨t, ht⟩ : ∃ t : Fin cfg0.N, t.val = (i 0).val / 512 :=
    ⟨⟨(i 0).val / 512, by show (i 0).val / 512 < grid0.N; omega⟩, rfl⟩
  refine ⟨t, flush0_7 t, ?_⟩
  rw [mem_blk7]
  obtain ⟨e00, e01, e10, e11, e20, e21, e30, e31, e40, e41, e50, e51, e60, e61, e70, e71, e80, e81⟩ := idx_facts t
  intro a
  match a with
  | ⟨0, _⟩ =>
    show win0_7.index t (0 : Fin 2) * 512 ≤ (i 0).val ∧ (i 0).val < win0_7.index t (0 : Fin 2) * 512 + 512
    rw [e70, ht]; omega
  | ⟨1, _⟩ =>
    show win0_7.index t (1 : Fin 2) * 1000 ≤ (i 1).val ∧ (i 1).val < win0_7.index t (1 : Fin 2) * 1000 + 1000
    rw [e71]; omega

/-- What point t writes back through window 7 is its block of the first view's parameters. -/
theorem flushed7_eq (c : Dev nD) (t : Fin cfg0.N) :
    (dats m 0 c).flushed 7 t = ((cfg0.win 7).blk t).view.read (Elt Ideal) (alphaArr (m ((c : Thread nD τ).loc main_arg0)) (m ((c : Thread nD τ).loc main_arg2)) (m ((c : Thread nD τ).loc main_arg3))) := by
  rw [flushed7]
  funext j
  have hN : grid0.N = 16 := N_0
  have ht : t.val < grid0.N := t.isLt
  have hj0 : (j 0).val < 512 := (j 0).isLt
  have hj1 : (j 1).val < 1000 := (j 1).isLt
  obtain ⟨e00, e01, e10, e11, e20, e21, e30, e31, e40, e41, e50, e51, e60, e61, e70, e71, e80, e81⟩ := idx_facts t
  have hr : t.val * 512 + (j 0).val < 8192 := by omega
  have hj : ((cfg0.win 7).xinj (grid0.coords t) j : S512x1000.Idx)
      = ix2 (⟨(j 0).val, hj0⟩ : Fin 512) (⟨(j 1).val, hj1⟩ : Fin 1000) :=
    funext fun a => by match a with | ⟨0, _⟩ => rfl | ⟨1, _⟩ => rfl
  have hi : (((cfg0.win 7).blk t).view.emb j : S8192x1000.Idx)
      = ix2 (⟨t.val * 512 + (j 0).val, hr⟩ : Fin 8192) (⟨(j 1).val, hj1⟩ : Fin 1000) :=
    funext fun a => Fin.ext (by
      match a with
      | ⟨0, _⟩ => show win0_7.index t (0 : Fin 2) * 512 + 1 * (j 0).val = t.val * 512 + (j 0).val; rw [e70]; omega
      | ⟨1, _⟩ => show win0_7.index t (1 : Fin 2) * 1000 + 1 * (j 1).val = (j 1).val; rw [e71]; omega)
  show out0_7 (F := Ideal) (iblk m c 0 t) (iblk m c 1 t) (iblk m c 2 t) (iblk m c 3 t) (iblk m c 4 t) (iblk m c 5 t)
      ((cfg0.win 7).xinj (grid0.coords t) j)
    = (alphaArr (m ((c : Thread nD τ).loc main_arg0)) (m ((c : Thread nD τ).loc main_arg2)) (m ((c : Thread nD τ).loc main_arg3))) (((cfg0.win 7).blk t).view.emb j)
  refine (congrArg _ hj).trans (Eq.trans ?_ (congrArg (alphaArr (m ((c : Thread nD τ).loc main_arg0)) (m ((c : Thread nD τ).loc main_arg2)) (m ((c : Thread nD τ).loc main_arg3))) hi).symm)
  exact first_block_point (iblk m c 0 t) (iblk m c 1 t) (iblk m c 2 t) (iblk m c 3 t) (iblk m c 4 t) (iblk m c 5 t)
    (m ((c : Thread nD τ).loc main_arg0)) (m ((c : Thread nD τ).loc main_arg2)) (m ((c : Thread nD τ).loc main_arg3)) ⟨(j 0).val, hj0⟩ ⟨t.val * 512 + (j 0).val, hr⟩
    (fun k => rows_first m c t _ _ rfl k) (fun k q => weights_first m c t k q) (fun q => bias_first m c t q) ⟨(j 1).val, hj1⟩

/-- So the array ends holding the first view's parameters: the sixteen blocks cover it. -/
theorem final7 (c : Dev nD) : (dats m 0 c).arrAt 7 cfg0.N = (alphaArr (m ((c : Thread nD τ).loc main_arg0)) (m ((c : Thread nD τ).loc main_arg2)) (m ((c : Thread nD τ).loc main_arg3))) :=
  (dats m 0 c).arrAt_eq_of_cover 7 (alphaArr (m ((c : Thread nD τ).loc main_arg0)) (m ((c : Thread nD τ).loc main_arg2)) (m ((c : Thread nD τ).loc main_arg3))) (fun t _ => flushed7_eq m c t) cover7

/-- An index of the result array lies in point t's block of window 8 iff each coordinate is in the block's range. -/
theorem mem_blk8 (t : Fin cfg0.N) (i : S8192x1000.Idx) :
    i ∈ ((cfg0.win 8).blk t).view.set ↔ ∀ a : Fin 2, win0_8.index t a * S512x1000.size a ≤ (i a).val
      ∧ (i a).val < win0_8.index t a * S512x1000.size a + S512x1000.size a := by
  show i ∈ ((View.whole main_v6_2).slice (win0_8.rect t)).set ↔ _
  rw [View.set_slice_whole, Rect.mem_set_unit]
  exact Iff.rfl

/-- Every sample's row lies in the block of the point that holds it: point `r / 512`. -/
theorem cover8 (i : S8192x1000.Idx) :
    ∃ t : Fin cfg0.N, (cfg0.win 8).flush t = true ∧ i ∈ ((cfg0.win 8).blk t).view.set := by
  have hN : grid0.N = 16 := N_0
  have hi0 : (i 0).val < 8192 := (i 0).isLt
  have hi1 : (i 1).val < 1000 := (i 1).isLt
  obtain ⟨t, ht⟩ : ∃ t : Fin cfg0.N, t.val = (i 0).val / 512 :=
    ⟨⟨(i 0).val / 512, by show (i 0).val / 512 < grid0.N; omega⟩, rfl⟩
  refine ⟨t, flush0_8 t, ?_⟩
  rw [mem_blk8]
  obtain ⟨e00, e01, e10, e11, e20, e21, e30, e31, e40, e41, e50, e51, e60, e61, e70, e71, e80, e81⟩ := idx_facts t
  intro a
  match a with
  | ⟨0, _⟩ =>
    show win0_8.index t (0 : Fin 2) * 512 ≤ (i 0).val ∧ (i 0).val < win0_8.index t (0 : Fin 2) * 512 + 512
    rw [e80, ht]; omega
  | ⟨1, _⟩ =>
    show win0_8.index t (1 : Fin 2) * 1000 ≤ (i 1).val ∧ (i 1).val < win0_8.index t (1 : Fin 2) * 1000 + 1000
    rw [e81]; omega

/-- What point t writes back through window 8 is its block of the second view's parameters. -/
theorem flushed8_eq (c : Dev nD) (t : Fin cfg0.N) :
    (dats m 0 c).flushed 8 t = ((cfg0.win 8).blk t).view.read (Elt Ideal) (alphaArr (m ((c : Thread nD τ).loc main_arg1)) (m ((c : Thread nD τ).loc main_arg4)) (m ((c : Thread nD τ).loc main_arg5))) := by
  rw [flushed8]
  funext j
  have hN : grid0.N = 16 := N_0
  have ht : t.val < grid0.N := t.isLt
  have hj0 : (j 0).val < 512 := (j 0).isLt
  have hj1 : (j 1).val < 1000 := (j 1).isLt
  obtain ⟨e00, e01, e10, e11, e20, e21, e30, e31, e40, e41, e50, e51, e60, e61, e70, e71, e80, e81⟩ := idx_facts t
  have hr : t.val * 512 + (j 0).val < 8192 := by omega
  have hj : ((cfg0.win 8).xinj (grid0.coords t) j : S512x1000.Idx)
      = ix2 (⟨(j 0).val, hj0⟩ : Fin 512) (⟨(j 1).val, hj1⟩ : Fin 1000) :=
    funext fun a => by match a with | ⟨0, _⟩ => rfl | ⟨1, _⟩ => rfl
  have hi : (((cfg0.win 8).blk t).view.emb j : S8192x1000.Idx)
      = ix2 (⟨t.val * 512 + (j 0).val, hr⟩ : Fin 8192) (⟨(j 1).val, hj1⟩ : Fin 1000) :=
    funext fun a => Fin.ext (by
      match a with
      | ⟨0, _⟩ => show win0_8.index t (0 : Fin 2) * 512 + 1 * (j 0).val = t.val * 512 + (j 0).val; rw [e80]; omega
      | ⟨1, _⟩ => show win0_8.index t (1 : Fin 2) * 1000 + 1 * (j 1).val = (j 1).val; rw [e81]; omega)
  show out0_8 (F := Ideal) (iblk m c 0 t) (iblk m c 1 t) (iblk m c 2 t) (iblk m c 3 t) (iblk m c 4 t) (iblk m c 5 t)
      ((cfg0.win 8).xinj (grid0.coords t) j)
    = (alphaArr (m ((c : Thread nD τ).loc main_arg1)) (m ((c : Thread nD τ).loc main_arg4)) (m ((c : Thread nD τ).loc main_arg5))) (((cfg0.win 8).blk t).view.emb j)
  refine (congrArg _ hj).trans (Eq.trans ?_ (congrArg (alphaArr (m ((c : Thread nD τ).loc main_arg1)) (m ((c : Thread nD τ).loc main_arg4)) (m ((c : Thread nD τ).loc main_arg5))) hi).symm)
  exact second_block_point (iblk m c 0 t) (iblk m c 1 t) (iblk m c 2 t) (iblk m c 3 t) (iblk m c 4 t) (iblk m c 5 t)
    (m ((c : Thread nD τ).loc main_arg1)) (m ((c : Thread nD τ).loc main_arg4)) (m ((c : Thread nD τ).loc main_arg5)) ⟨(j 0).val, hj0⟩ ⟨t.val * 512 + (j 0).val, hr⟩
    (fun k => rows_second m c t _ _ rfl k) (fun k q => weights_second m c t k q) (fun q => bias_second m c t q) ⟨(j 1).val, hj1⟩

/-- So the array ends holding the second view's parameters: the sixteen blocks cover it. -/
theorem final8 (c : Dev nD) : (dats m 0 c).arrAt 8 cfg0.N = (alphaArr (m ((c : Thread nD τ).loc main_arg1)) (m ((c : Thread nD τ).loc main_arg4)) (m ((c : Thread nD τ).loc main_arg5))) :=
  (dats m 0 c).arrAt_eq_of_cover 8 (alphaArr (m ((c : Thread nD τ).loc main_arg1)) (m ((c : Thread nD τ).loc main_arg4)) (m ((c : Thread nD τ).loc main_arg5))) (fun t _ => flushed8_eq m c t) cover8

/-! ## The run, read -/

/-- Every weakly fair execution of the kernel's program ends with the three result arrays at the fused parameters and
    the two views' parameters of the argument arrays, and the arguments unchanged. -/
theorem run : θ_run defs (onTc (τ := τ) (main (F := Ideal))) ⟨m, fun _ => 0, ρ⟩ fun r => ∀ c : Dev nD,
      r.2.mem ((c : Thread nD τ).loc main_v6_0) = (fusedArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c : Thread nD τ).loc main_v6_1) = (alphaArr (m ((c : Thread nD τ).loc main_arg0)) (m ((c : Thread nD τ).loc main_arg2)) (m ((c : Thread nD τ).loc main_arg3)))
      ∧ r.2.mem ((c : Thread nD τ).loc main_v6_2) = (alphaArr (m ((c : Thread nD τ).loc main_arg1)) (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c),
      (h c).2.2.1.trans (final8 m c), (h c).2.2.2⟩)
    (Cert.KernelIdeal.Value.run_blocks m ρ)

end Cert.KernelIdeal.Blocks

end
-- ==== Proof.lean ====
/-
  Two views' evidence, fused: a Pallas kernel against its jnp reference, equal on the extended reals.

  Both programs take two feature arrays (8192 × 2048), two weight matrices (1000 × 2048) and two bias vectors, form
  the logits of each view, turn them into Dirichlet parameters alpha = softplus + 1, and combine the two views'
  parameters sample by sample with Dempster's rule (Proof/Spec.lean states the three results as functions of the six
  arguments). The kernel works on sixteen blocks of 512 samples; the reference on whole arrays. On the extended reals
  the two agree operation by operation: the kernel's change of float format before its matrix product is the identity,
  its product into a zero accumulator is the reference's product, its lane sums are the reference's sums, its
  `0 - |z|` is the reference's `-|z|`, and the guard `z ≠ z` both carry never fires. No finiteness of the inputs is
  used. Proof/KerRow.lean, KerPoint.lean and KerBlocks.lean read the kernel's arrays, Proof/RefRow.lean the reference's.
-/
import proofs.«145025_j84902913507853_1_alg».proof.Defs
import proofs.«145025_j84902913507853_1_alg».proof.Proof.Gen.Kernel
import proofs.«145025_j84902913507853_1_alg».proof.Proof.Gen.Kernel.Frame
import proofs.«145025_j84902913507853_1_alg».proof.Proof.Gen.KernelIdeal
import proofs.«145025_j84902913507853_1_alg».proof.Proof.Gen.KernelIdeal.Frame
import proofs.«145025_j84902913507853_1_alg».proof.Proof.Gen.KernelIdeal.Value
import proofs.«145025_j84902913507853_1_alg».proof.Proof.Gen.ReferenceIdeal
import proofs.«145025_j84902913507853_1_alg».proof.Proof.Gen.Pre_finite_inputs
import proofs.«145025_j84902913507853_1_alg».proof.Proof.RefRun
import proofs.«145025_j84902913507853_1_alg».proof.Proof.RefRead
import proofs.«145025_j84902913507853_1_alg».proof.Proof.RefRow
import proofs.«145025_j84902913507853_1_alg».proof.Proof.KerBlocks
import Idealize.ShloMosaic.Adequacy
import Idealize.ShloMosaic.Init

noncomputable section

namespace Cert.Proof

open Idealize.ShloMosaic Idealize.ShloMosaic.TcCoe Idealize.SL.Sem Cert.Fusion

/-- The kernel as printed runs, faults nowhere and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as they were: its run, with the results dropped. -/
theorem frame_reference : Cert.frame_ReferenceIdeal := fun m ρ _ =>
  (θ_run Cert.ReferenceIdeal.defs _ _).mono (fun _ h c => (h c).2.2.2) (Cert.ReferenceIdeal.ValueP.run (F := Ideal) m ρ)

/-- The idealization rewrote nothing. -/
theorem preserves : Cert.preserves_Kernel_KernelIdeal := trivial

/-- Run from memories that agree on the six arguments, the kernel's three result arrays end at `fusedArr`, `alphaArr`
    of the first view and `alphaArr` of the second (Proof/KerBlocks.lean), and the reference's three results are the
    same three functions of its arguments (Proof/RefRow.lean). -/
theorem algebraic : Cert.algebraic_KernelIdeal_ReferenceIdeal := by
  intro m ρ m' ρ' _ hagree
  refine ⟨_, _, _, Cert.KernelIdeal.Blocks.run m ρ, ?_⟩
  refine (θ_run Cert.ReferenceIdeal.defs _ _).mono (fun _ h c => ?_) (Cert.ReferenceIdeal.ValueP.run (F := Ideal) m' ρ')
  obtain ⟨a0, a1, a2, a3, a4, a5⟩ := hagree c
  refine ⟨(h c).1.trans ?_, (h c).2.1.trans ?_, (h c).2.2.1.trans ?_, (h c).2.2.2⟩
  · rw [Cert.ReferenceIdeal.ReadP.val_main_v57_eq, Cert.ReferenceIdeal.Row.fused_arr, a0, a1, a2, a3, a4, a5]
  · rw [Cert.ReferenceIdeal.ReadP.val_main_v12_eq, Cert.ReferenceIdeal.Row.alpha_first_arr, a0, a2, a3]
  · rw [Cert.ReferenceIdeal.ReadP.val_main_v15_eq, Cert.ReferenceIdeal.Row.alpha_second_arr, a1, a4, a5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
